-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S2x600000 : Shape := ⟨2, ![2, 600000]⟩
abbrev S600000x16 : Shape := ⟨2, ![600000, 16]⟩
abbrev S200000 : Shape := ⟨1, ![200000]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg33 : FVec F S1 .f32) (main_v153 : IVec S_ 1) : IVec S_ 1 :=
  let main_v154 : FVec F S1 .f32 := Host.absf main_arg33
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  main_v158

def fn_part8 {F : FTy → Type} [FloatOps F] (main_arg30 : FVec F S128x64 .f32) (main_arg31 : FVec F S64 .f32) (main_arg32 : FVec F S64x1 .f32) (main_arg33 : FVec F S1 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x64 .f32 := Host.absf main_arg30
  let main_cst_54 : FVec F S_ .f32 := constant S_ .f32 0x7F800000#32
  let main_v140 : FVec F S128x64 .f32 := broadcastInDim S128x64 ![] bcast_S_S128x64 main_cst_54
  let main_v141 : IVec S128x64 1 := cmpf .olt main_v139 main_v140
  let main_c_55 : IVec S_ 1 := constantI S_ 1 1#1
  let main_v142 : IVec S_ 1 := (fun x v => Host.reduce IntOp.andi x v reducesTo_S128x64_S_d0_1 h_S_) main_v141 main_c_55
  let main_v143 : IVec S_ 1 := andi main_v138 main_v142
  let main_v144 : FVec F S64 .f32 := Host.absf main_arg31
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64x1 .f32 := Host.absf main_arg32
  let main_cst_58 : FVec F S_ .f32 := constant S_ .f32 0x7F800000#32
  let main_v150 : FVec F S64x1 .f32 := broadcastInDim S64x1 ![] bcast_S_S64x1 main_cst_58
  let main_v151 : IVec S64x1 1 := cmpf .olt main_v149 main_v150
  let main_c_59 : IVec S_ 1 := constantI S_ 1 1#1
  let main_v152 : IVec S_ 1 := (fun x v => Host.reduce IntOp.andi x v reducesTo_S64x1_S_d0_1 h_S_) main_v151 main_c_59
  let main_v153 : IVec S_ 1 := andi main_v148 main_v152
  fn_part9 (F := F) main_arg33 main_v153

def fn_part7 {F : FTy → Type} [FloatOps F] (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S16x128 .f32 := Host.absf main_arg28
  let main_cst_50 : FVec F S_ .f32 := constant S_ .f32 0x7F800000#32
  let main_v130 : FVec F S16x128 .f32 := broadcastInDim S16x128 ![] bcast_S_S16x128 main_cst_50
  let main_v131 : IVec S16x128 1 := cmpf .olt main_v129 main_v130
  let main_c_51 : IVec S_ 1 := constantI S_ 1 1#1
  let main_v132 : IVec S_ 1 := (fun x v => Host.reduce IntOp.andi x v reducesTo_S16x128_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg30 main_arg31 main_arg32 main_arg33 main_v133 main_v136

def fn_part6 {F : FTy → Type} [FloatOps F] (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg26
  fn_part7 (F := F) main_arg27 main_arg28 main_arg29 main_arg30 main_arg31 main_arg32 main_arg33 main_v118 main_v119

def fn_part5 {F : FTy → Type} [FloatOps F] (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_v98 main_v101 main_c_39

def fn_part4 {F : FTy → Type} [FloatOps F] (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S200000x32 .f32) (main_arg1 : IVec S2x600000 32) (main_arg2 : FVec F S600000x16 .f32) (main_arg3 : IVec S200000 32) (main_arg4 : FVec F S32x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S16x128 .f32) (main_arg29 : FVec F S128 .f32) (main_arg30 : FVec F S128x64 .f32) (main_arg31 : FVec F S64 .f32) (main_arg32 : FVec F S64x1 .f32) (main_arg33 : FVec F S1 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S200000x32 : Shape := ⟨2, ![200000, 32]⟩
abbrev S2x600000 : Shape := ⟨2, ![2, 600000]⟩
abbrev S600000x16 : Shape := ⟨2, ![600000, 16]⟩
abbrev S200000 : Shape := ⟨1, ![200000]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x32 : Shape := ⟨2, ![600000, 32]⟩
abbrev S1x128 : Shape := ⟨2, ![1, 128]⟩
abbrev S200000x128 : Shape := ⟨2, ![200000, 128]⟩
abbrev S4000x32 : Shape := ⟨2, ![4000, 32]⟩
abbrev S4000x128 : Shape := ⟨2, ![4000, 128]⟩
abbrev S600000x128 : Shape := ⟨2, ![600000, 128]⟩
abbrev S10000x128 : Shape := ⟨2, ![10000, 128]⟩
abbrev S200000x1 : Shape := ⟨2, ![200000, 1]⟩
abbrev S10000x64 : Shape := ⟨2, ![10000, 64]⟩
abbrev S1x64 : Shape := ⟨2, ![1, 64]⟩
abbrev S10000x1 : Shape := ⟨2, ![10000, 1]⟩
abbrev S1x1 : Shape := ⟨2, ![1, 1]⟩

abbrev nBuf : Space → Nat
  | .hbm => 121
  | .vmem => 42
  | .smem => 0
  | _ => 0

abbrev bufTy : (tb : Table) → Fin (tcTables nBuf tb) → BufTy
  | .hbm, ⟨0, _⟩ => ⟨S200000x32, .f32⟩
  | .hbm, ⟨1, _⟩ => ⟨S2x600000, .i32⟩
  | .hbm, ⟨2, _⟩ => ⟨S600000x16, .f32⟩
  | .hbm, ⟨3, _⟩ => ⟨S200000, .i32⟩
  | .hbm, ⟨4, _⟩ => ⟨S32x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S16x128, .f32⟩
  | .hbm, ⟨29, _⟩ => ⟨S128, .f32⟩
  | .hbm, ⟨30, _⟩ => ⟨S128x64, .f32⟩
  | .hbm, ⟨31, _⟩ => ⟨S64, .f32⟩
  | .hbm, ⟨32, _⟩ => ⟨S64x1, .f32⟩
  | .hbm, ⟨33, _⟩ => ⟨S1, .f32⟩
  | .hbm, ⟨34, _⟩ => ⟨S1x600000, .i32⟩
  | .hbm, ⟨35, _⟩ => ⟨S600000, .i32⟩
  | .hbm, ⟨36, _⟩ => ⟨S1x600000, .i32⟩
  | .hbm, ⟨37, _⟩ => ⟨S600000, .i32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x32, .f32⟩
  | .hbm, ⟨47, _⟩ => ⟨S_, .f32⟩
  | .hbm, ⟨48, _⟩ => ⟨S200000x32, .f32⟩
  | .hbm, ⟨49, _⟩ => ⟨S600000x1, .i32⟩
  | .hbm, ⟨50, _⟩ => ⟨S200000x32, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S200000x128, .f32⟩
  | .hbm, ⟨58, _⟩ => ⟨S1x600000, .i32⟩
  | .hbm, ⟨59, _⟩ => ⟨S600000, .i32⟩
  | .hbm, ⟨60, _⟩ => ⟨S1x600000, .i32⟩
  | .hbm, ⟨61, _⟩ => ⟨S600000, .i32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S_, .f32⟩
  | .hbm, ⟨72, _⟩ => ⟨S200000x128, .f32⟩
  | .hbm, ⟨73, _⟩ => ⟨S600000x1, .i32⟩
  | .hbm, ⟨74, _⟩ => ⟨S200000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S200000x128, .f32⟩
  | .hbm, ⟨82, _⟩ => ⟨S1x600000, .i32⟩
  | .hbm, ⟨83, _⟩ => ⟨S600000, .i32⟩
  | .hbm, ⟨84, _⟩ => ⟨S1x600000, .i32⟩
  | .hbm, ⟨85, _⟩ => ⟨S600000, .i32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S_, .f32⟩
  | .hbm, ⟨96, _⟩ => ⟨S200000x128, .f32⟩
  | .hbm, ⟨97, _⟩ => ⟨S600000x1, .i32⟩
  | .hbm, ⟨98, _⟩ => ⟨S200000x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S200000x128, .f32⟩
  | .hbm, ⟨106, _⟩ => ⟨S_, .f32⟩
  | .hbm, ⟨107, _⟩ => ⟨S10000x128, .f32⟩
  | .hbm, ⟨108, _⟩ => ⟨S200000x1, .i32⟩
  | .hbm, ⟨109, _⟩ => ⟨S10000x128, .f32⟩
  | .hbm, ⟨110, _⟩ => ⟨S10000x64, .f32⟩
  | .hbm, ⟨111, _⟩ => ⟨S1x64, .f32⟩
  | .hbm, ⟨112, _⟩ => ⟨S10000x64, .f32⟩
  | .hbm, ⟨113, _⟩ => ⟨S10000x64, .f32⟩
  | .hbm, ⟨114, _⟩ => ⟨S_, .f32⟩
  | .hbm, ⟨115, _⟩ => ⟨S10000x64, .f32⟩
  | .hbm, ⟨116, _⟩ => ⟨S10000x64, .f32⟩
  | .hbm, ⟨117, _⟩ => ⟨S10000x1, .f32⟩
  | .hbm, ⟨118, _⟩ => ⟨S1x1, .f32⟩
  | .hbm, ⟨119, _⟩ => ⟨S10000x1, .f32⟩
  | .hbm, ⟨120, _⟩ => ⟨S10000x1, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S32x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c_1 : Ref sig .tc := ⟨.hbm, 62, rfl⟩
abbrev main_v25 : Ref sig .tc := ⟨.hbm, 63, rfl⟩
abbrev main_v26 : Ref sig .tc := ⟨.hbm, 64, rfl⟩
abbrev main_c_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_3 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_c_4 : Ref sig .tc := ⟨.hbm, 86, rfl⟩
abbrev main_v46 : Ref sig .tc := ⟨.hbm, 87, rfl⟩
abbrev main_v47 : Ref sig .tc := ⟨.hbm, 88, rfl⟩
abbrev main_c_5 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_6 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_7 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call0_cst : Ref sig .tc := ⟨.hbm, 114, rfl⟩
abbrev main_call0_v0 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x32 : S_.BroadcastsInDim S200000x32 (![] : Fin 0 → Fin S200000x32.rank)
  shapeCasts_S128_S1x128 : S128.ShapeCasts S1x128
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S200000x128 : S_.BroadcastsInDim S200000x128 (![] : Fin 0 → Fin S200000x128.rank)
  shapeCasts_S4000x128_S4000x128 : S4000x128.ShapeCasts S4000x128
  bcast_S_S10000x128 : S_.BroadcastsInDim S10000x128 (![] : Fin 0 → Fin S10000x128.rank)
  bcast_S200000_S200000x1_0 : S200000.BroadcastsInDim S200000x1 (![0] : Fin 1 → Fin S200000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  gather_S200000x32_S600000x1_S600000x32_1_0_n_n_0_1_132_wf : GatherDims.WF S200000x32 S600000x1 S600000x32 [1] [0] [] [0] [] 1 ![1, 32]
  scatter_S200000x32_S600000x1_S600000x32_1_0_0_1_wf : ScatterDims.WF S200000x32 S600000x1 S600000x32 [1] [0] [0] 1
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S10000x128_S200000x1_S200000x128_1_0_0_1_wf : ScatterDims.WF S10000x128 S200000x1 S200000x128 [1] [0] [0] 1
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S200000x32.size a
  hwx0_0 : ∀ i : grid0.Coords, EltTy.bits .f32 = 32 ∨ (Rect.block (s := S200000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S200000x32.size a
  hwx0_1 : ∀ i : grid0.Coords, EltTy.bits .f32 = 32 ∨ (Rect.block (s := S200000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S200000x128.size a
  hwx0_10 : ∀ i : grid0.Coords, EltTy.bits .f32 = 32 ∨ (Rect.block (s := S200000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S200000x128.size a
  hwx1_10 : ∀ i : grid1.Coords, EltTy.bits .f32 = 32 ∨ (Rect.block (s := S200000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x128.size a ≤ S200000x128.size a
  hwx2_10 : ∀ i : grid2.Coords, EltTy.bits .f32 = 32 ∨ (Rect.block (s := S200000x128) S4000x128.size (cc2_transform_10 i) (hinb2_10 i)).WholeWords (EltTy.packing .f32)

variable [Facts₀]

def gather_S200000x32_S600000x1_S600000x32_1_0_n_n_0_1_132 : GatherDims S200000x32 S600000x1 S600000x32 where
  offsetDims := [1]
  collapsedSliceDims := [0]
  operandBatchingDims := []
  startIndicesBatchingDims := []
  startIndexMap := [0]
  indexVectorDim := 1
  sliceSizes := ![1, 32]
  wf := gather_S200000x32_S600000x1_S600000x32_1_0_n_n_0_1_132_wf
def scatter_S200000x32_S600000x1_S600000x32_1_0_0_1 : ScatterDims S200000x32 S600000x1 S600000x32 where
  updateWindowDims := [1]
  insertedWindowDims := [0]
  scatterDimsToOperandDims := [0]
  indexVectorDim := 1
  wf := scatter_S200000x32_S600000x1_S600000x32_1_0_0_1_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v61) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v62) S4000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S200000x32 : Shape := ⟨2, ![200000, 32]⟩
abbrev S2x600000 : Shape := ⟨2, ![2, 600000]⟩
abbrev S600000x16 : Shape := ⟨2, ![600000, 16]⟩
abbrev S200000 : Shape := ⟨1, ![200000]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S600000x128 : Shape := ⟨2, ![600000, 128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x32 : Shape := ⟨2, ![600000, 32]⟩
abbrev S200000x128 : Shape := ⟨2, ![200000, 128]⟩
abbrev S10000x128 : Shape := ⟨2, ![10000, 128]⟩
abbrev S200000x1 : Shape := ⟨2, ![200000, 1]⟩
abbrev S10000x64 : Shape := ⟨2, ![10000, 64]⟩
abbrev S1x64 : Shape := ⟨2, ![1, 64]⟩
abbrev S10000x1 : Shape := ⟨2, ![10000, 1]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S200000x32, .f32⟩
  | 1 => ⟨S2x600000, .i32⟩
  | 2 => ⟨S600000x16, .f32⟩
  | 3 => ⟨S200000, .i32⟩
  | 4 => ⟨S32x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S16x128, .f32⟩
  | 29 => ⟨S128, .f32⟩
  | 30 => ⟨S128x64, .f32⟩
  | 31 => ⟨S64, .f32⟩
  | 32 => ⟨S64x1, .f32⟩
  | 33 => ⟨S1, .f32⟩
  | 34 => ⟨S600000x128, .f32⟩
  | 35 => ⟨S1x128, .f32⟩
  | 36 => ⟨S600000x128, .f32⟩
  | 37 => ⟨S600000x128, .f32⟩
  | 38 => ⟨S1x600000, .i32⟩
  | 39 => ⟨S600000, .i32⟩
  | 40 => ⟨S1x600000, .i32⟩
  | 41 => ⟨S600000, .i32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x32, .f32⟩
  | 51 => ⟨S_, .f32⟩
  | 52 => ⟨S200000x32, .f32⟩
  | 53 => ⟨S600000x1, .i32⟩
  | 54 => ⟨S200000x32, .f32⟩
  | 55 => ⟨S200000x32, .f32⟩
  | 56 => ⟨S200000x128, .f32⟩
  | 57 => ⟨S1x128, .f32⟩
  | 58 => ⟨S200000x128, .f32⟩
  | 59 => ⟨S200000x128, .f32⟩
  | 60 => ⟨S1x128, .f32⟩
  | 61 => ⟨S200000x128, .f32⟩
  | 62 => ⟨S200000x128, .f32⟩
  | 63 => ⟨S_, .f32⟩
  | 64 => ⟨S128, .f32⟩
  | 65 => ⟨S128, .f32⟩
  | 66 => ⟨S128, .f32⟩
  | 67 => ⟨S1x128, .f32⟩
  | 68 => ⟨S200000x128, .f32⟩
  | 69 => ⟨S200000x128, .f32⟩
  | 70 => ⟨S1x128, .f32⟩
  | 71 => ⟨S200000x128, .f32⟩
  | 72 => ⟨S200000x128, .f32⟩
  | 73 => ⟨S1x128, .f32⟩
  | 74 => ⟨S200000x128, .f32⟩
  | 75 => ⟨S200000x128, .f32⟩
  | 76 => ⟨S_, .f32⟩
  | 77 => ⟨S200000x128, .f32⟩
  | 78 => ⟨S200000x128, .f32⟩
  | 79 => ⟨S200000x128, .f32⟩
  | 80 => ⟨S1x128, .f32⟩
  | 81 => ⟨S200000x128, .f32⟩
  | 82 => ⟨S200000x128, .f32⟩
  | 83 => ⟨S_, .f32⟩
  | 84 => ⟨S200000x128, .f32⟩
  | 85 => ⟨S200000x128, .f32⟩
  | 86 => ⟨S1x600000, .i32⟩
  | 87 => ⟨S600000, .i32⟩
  | 88 => ⟨S1x600000, .i32⟩
  | 89 => ⟨S600000, .i32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S200000x128, .f32⟩
  | 101 => ⟨S600000x1, .i32⟩
  | 102 => ⟨S200000x128, .f32⟩
  | 103 => ⟨S200000x128, .f32⟩
  | 104 => ⟨S200000x128, .f32⟩
  | 105 => ⟨S1x128, .f32⟩
  | 106 => ⟨S200000x128, .f32⟩
  | 107 => ⟨S200000x128, .f32⟩
  | 108 => ⟨S1x128, .f32⟩
  | 109 => ⟨S200000x128, .f32⟩
  | 110 => ⟨S200000x128, .f32⟩
  | 111 => ⟨S_, .f32⟩
  | 112 => ⟨S128, .f32⟩
  | 113 => ⟨S128, .f32⟩
  | 114 => ⟨S128, .f32⟩
  | 115 => ⟨S1x128, .f32⟩
  | 116 => ⟨S200000x128, .f32⟩
  | 117 => ⟨S200000x128, .f32⟩
  | 118 => ⟨S1x128, .f32⟩
  | 119 => ⟨S200000x128, .f32⟩
  | 120 => ⟨S200000x128, .f32⟩
  | 121 => ⟨S1x128, .f32⟩
  | 122 => ⟨S200000x128, .f32⟩
  | 123 => ⟨S200000x128, .f32⟩
  | 124 => ⟨S_, .f32⟩
  | 125 => ⟨S200000x128, .f32⟩
  | 126 => ⟨S200000x128, .f32⟩
  | 127 => ⟨S200000x128, .f32⟩
  | _ => ⟨S200000x32, .f32⟩

abbrev hbmTy0_1 (i : Nat) : BufTy := match i % 128 with
  | 0 => ⟨S1x128, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S1x600000, .i32⟩
  | 7 => ⟨S600000, .i32⟩
  | 8 => ⟨S1x600000, .i32⟩
  | 9 => ⟨S600000, .i32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S_, .f32⟩
  | 20 => ⟨S200000x128, .f32⟩
  | 21 => ⟨S600000x1, .i32⟩
  | 22 => ⟨S200000x128, .f32⟩
  | 23 => ⟨S200000x128, .f32⟩
  | 24 => ⟨S200000x128, .f32⟩
  | 25 => ⟨S1x128, .f32⟩
  | 26 => ⟨S200000x128, .f32⟩
  | 27 => ⟨S200000x128, .f32⟩
  | 28 => ⟨S1x128, .f32⟩
  | 29 => ⟨S200000x128, .f32⟩
  | 30 => ⟨S200000x128, .f32⟩
  | 31 => ⟨S_, .f32⟩
  | 32 => ⟨S128, .f32⟩
  | 33 => ⟨S128, .f32⟩
  | 34 => ⟨S128, .f32⟩
  | 35 => ⟨S1x128, .f32⟩
  | 36 => ⟨S200000x128, .f32⟩
  | 37 => ⟨S200000x128, .f32⟩
  | 38 => ⟨S1x128, .f32⟩
  | 39 => ⟨S200000x128, .f32⟩
  | 40 => ⟨S200000x128, .f32⟩
  | 41 => ⟨S1x128, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x128, .f32⟩
  | 48 => ⟨S1x128, .f32⟩
  | 49 => ⟨S200000x128, .f32⟩
  | 50 => ⟨S200000x128, .f32⟩
  | 51 => ⟨S_, .f32⟩
  | 52 => ⟨S200000x128, .f32⟩
  | 53 => ⟨S200000x128, .f32⟩
  | 54 => ⟨S_, .f32⟩
  | 55 => ⟨S10000x128, .f32⟩
  | 56 => ⟨S200000x1, .i32⟩
  | 57 => ⟨S10000x128, .f32⟩
  | 58 => ⟨S10000x64, .f32⟩
  | 59 => ⟨S1x64, .f32⟩
  | 60 => ⟨S10000x64, .f32⟩
  | 61 => ⟨S10000x64, .f32⟩
  | 62 => ⟨S_, .f32⟩
  | 63 => ⟨S10000x64, .f32⟩
  | 64 => ⟨S10000x64, .f32⟩
  | 65 => ⟨S10000x1, .f32⟩
  | 66 => ⟨S1x1, .f32⟩
  | 67 => ⟨S10000x1, .f32⟩
  | 68 => ⟨S10000x1, .f32⟩
  | _ => ⟨S200000x32, .f32⟩

abbrev hbmTy (i : Nat) : BufTy := match i / 128 with
  | 0 => hbmTy0_0 i
  | 1 => hbmTy0_1 i
  | _ => ⟨S200000x32, .f32⟩

abbrev bufTy : (tb : Table) → Fin (tcTables nBuf tb) → BufTy
  | .hbm, ⟨i, _⟩ => hbmTy i
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_c : Ref sig .tc := ⟨.hbm, 42, rfl⟩
abbrev main_v8 : Ref sig .tc := ⟨.hbm, 43, rfl⟩
abbrev main_v9 : Ref sig .tc := ⟨.hbm, 44, rfl⟩
abbrev main_c_0 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_call0_cst : Ref sig .tc := ⟨.hbm, 76, rfl⟩
abbrev main_call0_v0 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call1_cst : Ref sig .tc := ⟨.hbm, 83, rfl⟩
abbrev main_call1_v0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_2 : Ref sig .tc := ⟨.hbm, 90, rfl⟩
abbrev main_v48 : Ref sig .tc := ⟨.hbm, 91, rfl⟩
abbrev main_v49 : Ref sig .tc := ⟨.hbm, 92, rfl⟩
abbrev main_c_3 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_4 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_5 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_call2_cst : Ref sig .tc := ⟨.hbm, 124, rfl⟩
abbrev main_call2_v0 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call3_cst : Ref sig .tc := ⟨.hbm, 131, rfl⟩
abbrev main_call3_v0 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_6 : Ref sig .tc := ⟨.hbm, 138, rfl⟩
abbrev main_v88 : Ref sig .tc := ⟨.hbm, 139, rfl⟩
abbrev main_v89 : Ref sig .tc := ⟨.hbm, 140, rfl⟩
abbrev main_c_7 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_8 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_9 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_call4_cst : Ref sig .tc := ⟨.hbm, 172, rfl⟩
abbrev main_call4_v0 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_call5_cst : Ref sig .tc := ⟨.hbm, 179, rfl⟩
abbrev main_call5_v0 : Ref sig .tc := ⟨.hbm, 180, rfl⟩
abbrev main_v123 : Ref sig .tc := ⟨.hbm, 181, rfl⟩
abbrev main_cst_10 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_call6_cst : Ref sig .tc := ⟨.hbm, 190, rfl⟩
abbrev main_call6_v0 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x32 : S_.BroadcastsInDim S200000x32 (![] : Fin 0 → Fin S200000x32.rank)
  bcast_S1x128_S200000x128_0_1 : S1x128.BroadcastsInDim S200000x128 (![0, 1] : Fin 2 → Fin S200000x128.rank)
  bcast_S_S128 : S_.BroadcastsInDim S128 (![] : Fin 0 → Fin S128.rank)
  bcast_S_S200000x128 : S_.BroadcastsInDim S200000x128 (![] : Fin 0 → Fin S200000x128.rank)
  bcast_S_S10000x128 : S_.BroadcastsInDim S10000x128 (![] : Fin 0 → Fin S10000x128.rank)
  bcast_S200000_S200000x1_0 : S200000.BroadcastsInDim S200000x1 (![0] : Fin 1 → Fin S200000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S600000x16_S16x128_S600000x128_1_0_0_1_n_n_wf : DotDims.WF S600000x16 S16x128 S600000x128 [1] [0] [0] [1] [] []
  gather_S200000x32_S600000x1_S600000x32_1_0_n_n_0_1_132_wf : GatherDims.WF S200000x32 S600000x1 S600000x32 [1] [0] [] [0] [] 1 ![1, 32]
  scatter_S200000x32_S600000x1_S600000x32_1_0_0_1_wf : ScatterDims.WF S200000x32 S600000x1 S600000x32 [1] [0] [0] 1
  dot_S200000x32_S32x128_S200000x128_1_0_0_1_n_n_wf : DotDims.WF S200000x32 S32x128 S200000x128 [1] [0] [0] [1] [] []
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S10000x128_S200000x1_S200000x128_1_0_0_1_wf : ScatterDims.WF S10000x128 S200000x1 S200000x128 [1] [0] [0] 1
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []

variable [Facts₀]

def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def gather_S200000x32_S600000x1_S600000x32_1_0_n_n_0_1_132 : GatherDims S200000x32 S600000x1 S600000x32 where
  offsetDims := [1]
  collapsedSliceDims := [0]
  operandBatchingDims := []
  startIndicesBatchingDims := []
  startIndexMap := [0]
  indexVectorDim := 1
  sliceSizes := ![1, 32]
  wf := gather_S200000x32_S600000x1_S600000x32_1_0_n_n_0_1_132_wf
def scatter_S200000x32_S600000x1_S600000x32_1_0_0_1 : ScatterDims S200000x32 S600000x1 S600000x32 where
  updateWindowDims := [1]
  insertedWindowDims := [0]
  scatterDimsToOperandDims := [0]
  indexVectorDim := 1
  wf := scatter_S200000x32_S600000x1_S600000x32_1_0_0_1_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.KRun.lean ====
/-
  The idealized kernel's run with its result named.

  The program is three launches of the node-update kernel between stretches of host operations.  Following the buffer
  contents from the launch memory through every stretch and every launch, the last boundary's contents are a fixed
  function of the launch memory; every weakly fair execution terminates without a fault, and at the end each
  unscoped buffer holds exactly those contents.  Read at the result buffer, that is the value the equivalence is
  about; read at an argument buffer, it is the argument as launched.
-/
import proofs.«143687_j45320494907638_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and every argument
    buffer as launched. -/
theorem run_result : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c),
       (h c _ (mem_uc main_arg27 (by decide))).trans (W9_main_arg27 m ρ c),
       (h c _ (mem_uc main_arg28 (by decide))).trans (W9_main_arg28 m ρ c),
       (h c _ (mem_uc main_arg29 (by decide))).trans (W9_main_arg29 m ρ c),
       (h c _ (mem_uc main_arg30 (by decide))).trans (W9_main_arg30 m ρ c),
       (h c _ (mem_uc main_arg31 (by decide))).trans (W9_main_arg31 m ρ c),
       (h c _ (mem_uc main_arg32 (by decide))).trans (W9_main_arg32 m ρ c),
       (h c _ (mem_uc main_arg33 (by decide))).trans (W9_main_arg33 m ρ c)⟩)

end Cert.KernelIdeal.RunValue

end
-- ==== Proof.Spec.lean ====
/-
  One layer of the network, written once on the extended reals and index by index, for both programs to meet.

  A node's input row `h` (its own features plus the sum of its in-neighbours' features) is sent through an affine
  map, normalised feature by feature with fixed statistics — subtract the mean, multiply by the reciprocal square
  root of the variance plus a small guard, scale, shift —, clipped below at zero, sent through a second affine map,
  and clipped at zero again.  Everything here is a function of indices: no array of either program appears, so the
  kernel's blocks and the reference's whole-array operations can each be read against the same term.
-/
import Idealize.ShloMosaic.PureOps.Ideal
import Idealize.ShloMosaic.Lib.ValueIdx

noncomputable section

namespace Cert.GinSpec

open Idealize.ShloMosaic Idealize.ShloMosaic.ValueIdx

/-- The guard added to a variance before its reciprocal square root: the one 32-bit pattern both programs print. -/
abbrev varGuard : EReal := Ideal.ofBits .f32 0x3727C5AC#32

/-- Bias, normalise with fixed statistics, scale and shift, clip at zero: one hidden feature from its pre-activation. -/
def normClip (z b μ v γ β : EReal) : EReal :=
  max ((((z + b) - μ) * Ideal.rsqrt (v + varGuard)) * γ + β) 0

/-- Hidden feature `k` of a node whose input row is `h`: the first affine map's column `k`, normalised and clipped. -/
def hidden {D : Nat} (h : Fin D → EReal) (w1 : Fin D → Fin 128 → EReal) (b1 γ β μ v : Fin 128 → EReal)
    (k : Fin 128) : EReal :=
  normClip (∑ l : Fin D, h l * w1 l k) (b1 k) (μ k) (v k) (γ k) (β k)

/-- Output feature `j` of that node: the second affine map of the hidden features, clipped at zero. -/
def nodeOut {D : Nat} (h : Fin D → EReal) (w1 : Fin D → Fin 128 → EReal) (b1 γ β μ v : Fin 128 → EReal)
    (w2 : Fin 128 → Fin 128 → EReal) (b2 : Fin 128 → EReal) (j : Fin 128) : EReal :=
  max ((∑ k : Fin 128, hidden h w1 b1 γ β μ v k * w2 k j) + b2 j) 0

/-- The layer over all `N` nodes: entry `(r, j)` of the result is output feature `j` of node `r`, and depends on
    row `r` of the input only. -/
def layer {N D : Nat} (h : Fin N → Fin D → EReal) (w1 : Fin D → Fin 128 → EReal) (b1 γ β μ v : Fin 128 → EReal)
    (w2 : Fin 128 → Fin 128 → EReal) (b2 : Fin 128 → EReal) : (⟨2, ![N, 128]⟩ : Shape).Idx → EReal :=
  fun i => nodeOut (h (i 0)) w1 b1 γ β μ v w2 b2 (i 1)

theorem layer_apply {N D : Nat} (h : Fin N → Fin D → EReal) (w1 : Fin D → Fin 128 → EReal) (b1 γ β μ v : Fin 128 → EReal)
    (w2 : Fin 128 → Fin 128 → EReal) (b2 : Fin 128 → EReal) (r : Fin N) (j : Fin 128) :
    layer h w1 b1 γ β μ v w2 b2 (ix2 r j) = nodeOut (h r) w1 b1 γ β μ v w2 b2 j := rfl

/-- A node's output depends on its data only through their values: equal rows, weights, statistics and feature index
    give equal outputs. -/
theorem nodeOut_congr {D : Nat} {h h' : Fin D → EReal} {w1 w1' : Fin D → Fin 128 → EReal}
    {b1 b1' γ γ' β β' μ μ' v v' : Fin 128 → EReal} {w2 w2' : Fin 128 → Fin 128 → EReal} {b2 b2' : Fin 128 → EReal}
    {j j' : Fin 128}
    (eh : ∀ l, h l = h' l) (ew1 : ∀ l k, w1 l k = w1' l k) (eb1 : ∀ k, b1 k = b1' k) (eγ : ∀ k, γ k = γ' k)
    (eβ : ∀ k, β k = β' k) (eμ : ∀ k, μ k = μ' k) (ev : ∀ k, v k = v' k) (ew2 : ∀ k j, w2 k j = w2' k j)
    (eb2 : ∀ j, b2 j = b2' j) (ej : j = j') :
    nodeOut h w1 b1 γ β μ v w2 b2 j = nodeOut h' w1' b1' γ' β' μ' v' w2' b2' j' := by
  obtain rfl : h = h' := funext eh
  obtain rfl : w1 = w1' := funext fun l => funext (ew1 l)
  obtain rfl : b1 = b1' := funext eb1
  obtain rfl : γ = γ' := funext eγ
  obtain rfl : β = β' := funext eβ
  obtain rfl : μ = μ' := funext eμ
  obtain rfl : v = v' := funext ev
  obtain rfl : w2 = w2' := funext fun k => funext (ew2 k)
  obtain rfl : b2 = b2' := funext eb2
  subst ej
  rfl

/-- Two layers agree when their rows, weights and statistics do. -/
theorem layer_congr {N D : Nat} {h h' : Fin N → Fin D → EReal} {w1 w1' : Fin D → Fin 128 → EReal}
    {b1 b1' γ γ' β β' μ μ' v v' : Fin 128 → EReal} {w2 w2' : Fin 128 → Fin 128 → EReal} {b2 b2' : Fin 128 → EReal}
    (eh : ∀ r l, h r l = h' r l) (ew1 : ∀ l k, w1 l k = w1' l k) (eb1 : ∀ k, b1 k = b1' k) (eγ : ∀ k, γ k = γ' k)
    (eβ : ∀ k, β k = β' k) (eμ : ∀ k, μ k = μ' k) (ev : ∀ k, v k = v' k) (ew2 : ∀ k j, w2 k j = w2' k j)
    (eb2 : ∀ j, b2 j = b2' j) :
    layer h w1 b1 γ β μ v w2 b2 = layer h' w1' b1' γ' β' μ' v' w2' b2' :=
  funext fun i => nodeOut_congr (eh (i 0)) ew1 eb1 eγ eβ eμ ev ew2 eb2 rfl

end Cert.GinSpec

end
-- ==== Proof.KPay128.lean ====
/-
  What one grid point of the second and third layers' kernels leaves at an entry of its 4000 × 128 output block.

  The block's entry (p, q) is output feature q of the node in row p of the point's input blocks: the two input
  blocks are added entry by entry, the sum is multiplied by the first weight matrix (a matrix product into a zero
  accumulator is the plain sum over the contracted index), each hidden feature is biased, normalised by its fixed
  statistics (stored as 1 × 128 rows, repeated down the 4000 rows), scaled, shifted and clipped at zero, the second
  matrix product and bias follow, and the result is clipped again.  Changes of float format are the identity on the
  extended reals, so the narrowing casts in front of the two matrix products disappear.
-/
import proofs.«143687_j45320494907638_2_alg».proof.Proof.Gen.KernelIdeal.Skeleton
import proofs.«143687_j45320494907638_2_alg».proof.Proof.Spec
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.TcCoe Idealize.ShloMosaic.ValueIdx Cert.GinSpec

/-- A 1 × 128 row repeated down 4000 rows, read at (p, q), is the row's entry q. -/
theorem rowDown_apply (x : FVec Ideal S1x128 .f32) (p : Fin 4000) (q : Fin 128) :
    broadcastTo S4000x128 x broadcasts_S1x128_S4000x128 (ix2 p q) = x (ix2 (0 : Fin 1) q) :=
  broadcastTo_apply x broadcasts_S1x128_S4000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- The product's left operand is read in the output's row. -/
theorem lhsRowHH (i : S4000x128.Idx) (κ : dot_S4000x128_S128x128_S4000x128_1_0_0_1_n_n.contr.Idx) : (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The product's right operand is read in the output's column. -/
theorem rhsColHH (i : S4000x128.Idx) (κ : dot_S4000x128_S128x128_S4000x128_1_0_0_1_n_n.contr.Idx) : (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 by 128 × 128 matrix product into the zero accumulator, read at (p, q): the sum over the shared
    index k of the left factor at (p, k) times the right factor at (k, q). -/
theorem prodHH_apply {φ₁ φ₂ : FTy} (lhs : FVec Ideal S4000x128 φ₁) (rhs : FVec Ideal S128x128 φ₂) (p : Fin 4000) (q : Fin 128) :
    matmul dot_S4000x128_S128x128_S4000x128_1_0_0_1_n_n none lhs rhs (constant S4000x128 .f32 0x00000000#32) (ix2 p q)
      = ∑ k : Fin 128, lhs (ix2 p k) * rhs (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhsRowHH _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (dot_S4000x128_S128x128_S4000x128_1_0_0_1_n_n.rhsIdx_val_of_single rfl _ _).trans hk
      | ⟨1, _⟩ => exact rhsColHH _ _)
  rw [el, er]

/-- The reciprocal square root of a row plus a splat, read at an entry. -/
theorem rsqrtRow_apply (a : FVec Ideal S1x128 .f32) (w : Ideal .f32) (i : S1x128.Idx) :
    rsqrt (addf a (broadcast S1x128 w)) i = Ideal.rsqrt (a i + w) := rfl

/-- The zero pattern denotes zero. -/
theorem zeroWord : (Scalar.ofBits .f32 0x00000000#32 : Ideal .f32) = 0 := Ideal.ofBits_zero_f32

/-- Hidden feature k of the node in row p: the first product, biased, normalised, scaled, shifted, clipped. -/
theorem hiddenHH1_apply (x0 x1 : Vec Ideal S4000x128 .f32) (x2 : Vec Ideal S128x128 .f32) (b1 μ v γ β : Vec Ideal S1x128 .f32)
    (p : Fin 4000) (k : Fin 128) :
    k1_pay2 x0 x1 x2 b1 μ v γ β (ix2 p k)
      = Cert.GinSpec.hidden (fun l => x0 (ix2 p l) + x1 (ix2 p l)) (fun l k => x2 (ix2 l k)) (fun k => b1 (ix2 (0 : Fin 1) k))
          (fun k => γ (ix2 (0 : Fin 1) k)) (fun k => β (ix2 (0 : Fin 1) k)) (fun k => μ (ix2 (0 : Fin 1) k))
          (fun k => v (ix2 (0 : Fin 1) k)) k := by
  unfold k1_pay2 Cert.GinSpec.hidden normClip
  simp only [shapeCast_self, truncf_apply, maximumf_apply, addf_apply, mulf_apply, subf_apply, broadcast_apply,
    prodHH_apply, rowDown_apply, rsqrtRow_apply, zeroWord]
  rfl

/-- Output feature q of the node in row p: the second product of the hidden features, biased and clipped. -/
theorem payHH1_apply (x0 x1 : Vec Ideal S4000x128 .f32) (x2 : Vec Ideal S128x128 .f32) (x3 x4 x5 x6 x7 : Vec Ideal S1x128 .f32)
    (x8 : Vec Ideal S128x128 .f32) (x9 : Vec Ideal S1x128 .f32) (p : Fin 4000) (q : Fin 128) :
    k1_pay1 (k1_pay2 x0 x1 x2 x3 x6 x7 x4 x5) (k1_pay3 x8) (constant S4000x128 .f32 0x00000000#32) x9 (ix2 p q)
      = nodeOut (fun l => x0 (ix2 p l) + x1 (ix2 p l)) (fun l k => x2 (ix2 l k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) (fun k j => x8 (ix2 k j)) (fun j => x9 (ix2 (0 : Fin 1) j)) q := by
  unfold k1_pay1 k1_pay3 nodeOut
  simp only [shapeCast_self, truncf_apply, maximumf_apply, addf_apply, broadcast_apply, prodHH_apply, rowDown_apply,
    hiddenHH1_apply, zeroWord]

/-- Hidden feature k of the node in row p (third launch): the first product, biased, normalised, scaled, shifted, clipped. -/
theorem hiddenHH2_apply (x0 x1 : Vec Ideal S4000x128 .f32) (x2 : Vec Ideal S128x128 .f32) (b1 μ v γ β : Vec Ideal S1x128 .f32)
    (p : Fin 4000) (k : Fin 128) :
    k2_pay2 x0 x1 x2 b1 μ v γ β (ix2 p k)
      = Cert.GinSpec.hidden (fun l => x0 (ix2 p l) + x1 (ix2 p l)) (fun l k => x2 (ix2 l k)) (fun k => b1 (ix2 (0 : Fin 1) k))
          (fun k => γ (ix2 (0 : Fin 1) k)) (fun k => β (ix2 (0 : Fin 1) k)) (fun k => μ (ix2 (0 : Fin 1) k))
          (fun k => v (ix2 (0 : Fin 1) k)) k := by
  unfold k2_pay2 Cert.GinSpec.hidden normClip
  simp only [shapeCast_self, truncf_apply, maximumf_apply, addf_apply, mulf_apply, subf_apply, broadcast_apply,
    prodHH_apply, rowDown_apply, rsqrtRow_apply, zeroWord]
  rfl

/-- Output feature q of the node in row p (third launch): the second product of the hidden features, biased and clipped. -/
theorem payHH2_apply (x0 x1 : Vec Ideal S4000x128 .f32) (x2 : Vec Ideal S128x128 .f32) (x3 x4 x5 x6 x7 : Vec Ideal S1x128 .f32)
    (x8 : Vec Ideal S128x128 .f32) (x9 : Vec Ideal S1x128 .f32) (p : Fin 4000) (q : Fin 128) :
    k2_pay1 (k2_pay2 x0 x1 x2 x3 x6 x7 x4 x5) (k2_pay3 x8) (constant S4000x128 .f32 0x00000000#32) x9 (ix2 p q)
      = nodeOut (fun l => x0 (ix2 p l) + x1 (ix2 p l)) (fun l k => x2 (ix2 l k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) (fun k j => x8 (ix2 k j)) (fun j => x9 (ix2 (0 : Fin 1) j)) q := by
  unfold k2_pay1 k2_pay3 nodeOut
  simp only [shapeCast_self, truncf_apply, maximumf_apply, addf_apply, broadcast_apply, prodHH_apply, rowDown_apply,
    hiddenHH2_apply, zeroWord]

/-- The layer of the specification applied to arrays: the two node arrays added entry by entry give the input rows,
    the parameter arrays (the six 128-vectors laid as 1 × 128 rows) give the weights and statistics. -/
def layerFromHH (X AGG : S200000x128.Idx → EReal) (W1 : S128x128.Idx → EReal) (b1 γ β μ v : S1x128.Idx → EReal)
    (W2 : S128x128.Idx → EReal) (b2 : S1x128.Idx → EReal) : S200000x128.Idx → EReal :=
  layer (N := 200000) (D := 128) (fun r l => X (ix2 r l) + AGG (ix2 r l)) (fun l k => W1 (ix2 l k))
    (fun k => b1 (ix2 (0 : Fin 1) k)) (fun k => γ (ix2 (0 : Fin 1) k)) (fun k => β (ix2 (0 : Fin 1) k))
    (fun k => μ (ix2 (0 : Fin 1) k)) (fun k => v (ix2 (0 : Fin 1) k)) (fun k j => W2 (ix2 k j))
    (fun j => b2 (ix2 (0 : Fin 1) j))

/-- A block entry against the layer: if row p of the two input blocks is row r of the node arrays and the parameter
    blocks are the parameter arrays, then the node update of row p at feature q is the layer at (r, q). -/
theorem nodeOut_eq_layerFromHH (X AGG : S200000x128.Idx → EReal) (W1 : S128x128.Idx → EReal) (b1 γ β μ v : S1x128.Idx → EReal)
    (W2 : S128x128.Idx → EReal) (b2 : S1x128.Idx → EReal)
    (x0 x1 : S4000x128.Idx → EReal) (x2 : S128x128.Idx → EReal) (x3 x4 x5 x6 x7 : S1x128.Idx → EReal)
    (x8 : S128x128.Idx → EReal) (x9 : S1x128.Idx → EReal) (p : Fin 4000) (q : Fin 128) (i : S200000x128.Idx)
    (h0 : ∀ l, x0 (ix2 p l) = X (ix2 (i 0) l)) (h1 : ∀ l, x1 (ix2 p l) = AGG (ix2 (i 0) l))
    (h2 : ∀ l k, x2 (ix2 l k) = W1 (ix2 l k))
    (h3 : ∀ k, x3 (ix2 (0 : Fin 1) k) = b1 (ix2 (0 : Fin 1) k)) (h4 : ∀ k, x4 (ix2 (0 : Fin 1) k) = γ (ix2 (0 : Fin 1) k))
    (h5 : ∀ k, x5 (ix2 (0 : Fin 1) k) = β (ix2 (0 : Fin 1) k)) (h6 : ∀ k, x6 (ix2 (0 : Fin 1) k) = μ (ix2 (0 : Fin 1) k))
    (h7 : ∀ k, x7 (ix2 (0 : Fin 1) k) = v (ix2 (0 : Fin 1) k))
    (h8 : ∀ k j, x8 (ix2 k j) = W2 (ix2 k j)) (h9 : ∀ j, x9 (ix2 (0 : Fin 1) j) = b2 (ix2 (0 : Fin 1) j))
    (hq : i 1 = q) :
    nodeOut (fun l => x0 (ix2 p l) + x1 (ix2 p l)) (fun l k => x2 (ix2 l k)) (fun k => x3 (ix2 (0 : Fin 1) k))
        (fun k => x4 (ix2 (0 : Fin 1) k)) (fun k => x5 (ix2 (0 : Fin 1) k)) (fun k => x6 (ix2 (0 : Fin 1) k))
        (fun k => x7 (ix2 (0 : Fin 1) k)) (fun k j => x8 (ix2 k j)) (fun j => x9 (ix2 (0 : Fin 1) j)) q
      = layerFromHH X AGG W1 b1 γ β μ v W2 b2 i := by
  unfold layerFromHH layer
  exact nodeOut_congr (fun l => by rw [h0 l, h1 l]) h2 h3 h4 h5 h6 h7 h8 h9 hq.symm

end Cert.KernelValue

end
-- ==== Proof.KPay32.lean ====
/-
  What one grid point of the first layer's kernel leaves at an entry of its 4000 × 128 output block.

  The same node update as in the later layers, from input rows of 32 features: the first matrix product contracts
  over 32 entries, everything after it is as before.
-/
import proofs.«143687_j45320494907638_2_alg».proof.Proof.KPay128

noncomputable section

namespace Cert.KernelValue

open Cert.KernelIdeal Cert.KernelIdeal.Gen Idealize.ShloMosaic Idealize.ShloMosaic.TcCoe Idealize.ShloMosaic.ValueIdx Cert.GinSpec

/-- The first product's left operand is read in the output's row. -/
theorem lhsRowXH (i : S4000x128.Idx) (κ : dot_S4000x32_S32x128_S4000x128_1_0_0_1_n_n.contr.Idx) : (dot_S4000x32_S32x128_S4000x128_1_0_0_1_n_n.lhsIdx i κ 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl

/-- The first product's right operand is read in the output's column. -/
theorem rhsColXH (i : S4000x128.Idx) (κ : dot_S4000x32_S32x128_S4000x128_1_0_0_1_n_n.contr.Idx) : (dot_S4000x32_S32x128_S4000x128_1_0_0_1_n_n.rhsIdx i κ 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- A 4000 × 32 by 32 × 128 matrix product into the zero accumulator, read at (p, k): the sum over the shared index
    l of the left factor at (p, l) times the right factor at (l, k). -/
theorem prodXH_apply {φ₁ φ₂ : FTy} (lhs : FVec Ideal S4000x32 φ₁) (rhs : FVec Ideal S32x128 φ₂) (p : Fin 4000) (k : Fin 128) :
    matmul dot_S4000x32_S32x128_S4000x128_1_0_0_1_n_n none lhs rhs (constant S4000x128 .f32 0x00000000#32) (ix2 p k)
      = ∑ l : Fin 32, lhs (ix2 p l) * rhs (ix2 l k) := by
  simp only [matmul]
  rw [Ideal.matmul_constant_zero_apply, ← Equiv.sum_comp (contrEquiv1 dot_S4000x32_S32x128_S4000x128_1_0_0_1_n_n 32 rfl rfl).symm]
  refine Finset.sum_congr rfl fun l _ => ?_
  have hl := contrEquiv1_symm_val dot_S4000x32_S32x128_S4000x128_1_0_0_1_n_n 32 rfl rfl l
  have el : dot_S4000x32_S32x128_S4000x128_1_0_0_1_n_n.lhsIdx (ix2 p k) ((contrEquiv1 dot_S4000x32_S32x128_S4000x128_1_0_0_1_n_n 32 rfl rfl).symm l) = ix2 p l :=
    funext fun a => Fin.ext (by
      match a with
      | ⟨0, _⟩ => exact lhsRowXH _ _
      | ⟨1, _⟩ => exact (dot_S4000x32_S32x128_S4000x128_1_0_0_1_n_n.lhsIdx_val_of_single rfl _ _).trans hl)
  have er : dot_S4000x32_S32x128_S4000x128_1_0_0_1_n_n.rhsIdx (ix2 p k) ((contrEquiv1 dot_S4000x32_S32x128_S4000x128_1_0_0_1_n_n 32 rfl rfl).symm l) = ix2 l k :=
    funext fun a => Fin.ext (by
      match a with
      | ⟨0, _⟩ => exact (dot_S4000x32_S32x128_S4000x128_1_0_0_1_n_n.rhsIdx_val_of_single rfl _ _).trans hl
      | ⟨1, _⟩ => exact rhsColXH _ _)
  rw [el, er]

/-- Output feature q of the node in row p of the first layer's input blocks. -/
theorem payXH_apply (x0 x1 : Vec Ideal S4000x32 .f32) (x2 : Vec Ideal S32x128 .f32) (x3 x4 x5 x6 x7 : Vec Ideal S1x128 .f32)
    (x8 : Vec Ideal S128x128 .f32) (x9 : Vec Ideal S1x128 .f32) (p : Fin 4000) (q : Fin 128) :
    k0_pay1 (k0_pay2 x0 x1 x2 x3 x6 x7 x4 x5 x8) x9 (ix2 p q)
      = nodeOut (fun l => x0 (ix2 p l) + x1 (ix2 p l)) (fun l k => x2 (ix2 l k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) (fun k j => x8 (ix2 k j)) (fun j => x9 (ix2 (0 : Fin 1) j)) q := by
  unfold k0_pay1 k0_pay2 nodeOut Cert.GinSpec.hidden normClip
  simp only [shapeCast_self, truncf_apply, maximumf_apply, addf_apply, mulf_apply, subf_apply, broadcast_apply,
    prodHH_apply, prodXH_apply, rowDown_apply, rsqrtRow_apply, zeroWord]
  rfl

/-- The layer of the specification applied to arrays: the two node arrays added entry by entry give the input rows,
    the parameter arrays (the six 128-vectors laid as 1 × 128 rows) give the weights and statistics. -/
def layerFromXH (X AGG : S200000x32.Idx → EReal) (W1 : S32x128.Idx → EReal) (b1 γ β μ v : S1x128.Idx → EReal)
    (W2 : S128x128.Idx → EReal) (b2 : S1x128.Idx → EReal) : S200000x128.Idx → EReal :=
  layer (N := 200000) (D := 32) (fun r l => X (ix2 r l) + AGG (ix2 r l)) (fun l k => W1 (ix2 l k))
    (fun k => b1 (ix2 (0 : Fin 1) k)) (fun k => γ (ix2 (0 : Fin 1) k)) (fun k => β (ix2 (0 : Fin 1) k))
    (fun k => μ (ix2 (0 : Fin 1) k)) (fun k => v (ix2 (0 : Fin 1) k)) (fun k j => W2 (ix2 k j))
    (fun j => b2 (ix2 (0 : Fin 1) j))

/-- A block entry against the layer: if row p of the two input blocks is row r of the node arrays and the parameter
    blocks are the parameter arrays, then the node update of row p at feature q is the layer at (r, q). -/
theorem nodeOut_eq_layerFromXH (X AGG : S200000x32.Idx → EReal) (W1 : S32x128.Idx → EReal) (b1 γ β μ v : S1x128.Idx → EReal)
    (W2 : S128x128.Idx → EReal) (b2 : S1x128.Idx → EReal)
    (x0 x1 : S4000x32.Idx → EReal) (x2 : S32x128.Idx → EReal) (x3 x4 x5 x6 x7 : S1x128.Idx → EReal)
    (x8 : S128x128.Idx → EReal) (x9 : S1x128.Idx → EReal) (p : Fin 4000) (q : Fin 128) (i : S200000x128.Idx)
    (h0 : ∀ l, x0 (ix2 p l) = X (ix2 (i 0) l)) (h1 : ∀ l, x1 (ix2 p l) = AGG (ix2 (i 0) l))
    (h2 : ∀ l k, x2 (ix2 l k) = W1 (ix2 l k))
    (h3 : ∀ k, x3 (ix2 (0 : Fin 1) k) = b1 (ix2 (0 : Fin 1) k)) (h4 : ∀ k, x4 (ix2 (0 : Fin 1) k) = γ (ix2 (0 : Fin 1) k))
    (h5 : ∀ k, x5 (ix2 (0 : Fin 1) k) = β (ix2 (0 : Fin 1) k)) (h6 : ∀ k, x6 (ix2 (0 : Fin 1) k) = μ (ix2 (0 : Fin 1) k))
    (h7 : ∀ k, x7 (ix2 (0 : Fin 1) k) = v (ix2 (0 : Fin 1) k))
    (h8 : ∀ k j, x8 (ix2 k j) = W2 (ix2 k j)) (h9 : ∀ j, x9 (ix2 (0 : Fin 1) j) = b2 (ix2 (0 : Fin 1) j))
    (hq : i 1 = q) :
    nodeOut (fun l => x0 (ix2 p l) + x1 (ix2 p l)) (fun l k => x2 (ix2 l k)) (fun k => x3 (ix2 (0 : Fin 1) k))
        (fun k => x4 (ix2 (0 : Fin 1) k)) (fun k => x5 (ix2 (0 : Fin 1) k)) (fun k => x6 (ix2 (0 : Fin 1) k))
        (fun k => x7 (ix2 (0 : Fin 1) k)) (fun k j => x8 (ix2 k j)) (fun j => x9 (ix2 (0 : Fin 1) j)) q
      = layerFromXH X AGG W1 b1 γ β μ v W2 b2 i := by
  unfold layerFromXH layer
  exact nodeOut_congr (fun l => by rw [h0 l, h1 l]) h2 h3 h4 h5 h6 h7 h8 h9 hq.symm

end Cert.KernelValue

end
-- ==== Proof.KLayer0.lean ====
/-
  The array the first launch leaves, as one function of the arrays it finds.

  The launch walks 50 grid points; point t stages rows 4000·t … 4000·t + 3999 of the two node arrays (32 features wide here) and the whole
  of every weight and statistics array, and writes back the matching 4000 rows of the result.  Entry (p, q) of a
  point's output block is output feature q of the node in row p of its input blocks, so what point t writes back
  is rows 4000·t … of one whole-array function: the layer of the specification applied to the sum of the two node
  arrays.  The 50 blocks tile the 200000 rows, so after the last point the result array is that function.
-/
import proofs.«143687_j45320494907638_2_alg».proof.Proof.Gen.KernelIdeal.Frame
import proofs.«143687_j45320494907638_2_alg».proof.Proof.KPay32
import proofs.«143687_j45320494907638_2_alg».proof.Proof.Spec

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Cert.GinSpec
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- Entry (p, q) of a point's output block: the one store of the body covers the block, and its payload there is
    output feature q of the node in row p of the input blocks. -/
theorem outXH0_apply (x0 x1 : Vec Ideal S4000x32 .f32) (x2 : Vec Ideal S32x128 .f32) (x3 x4 x5 x6 x7 : Vec Ideal S1x128 .f32)
    (x8 : Vec Ideal S128x128 .f32) (x9 : Vec Ideal S1x128 .f32) (p : Fin 4000) (q : Fin 128) :
    out0_10 x0 x1 x2 x3 x4 x5 x6 x7 x8 x9 (ix2 p q)
      = nodeOut (fun l => x0 (ix2 p l) + x1 (ix2 p l)) (fun l k => x2 (ix2 l k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) (fun k j => x8 (ix2 k j)) (fun j => x9 (ix2 (0 : Fin 1) j)) q := by
  unfold out0_10
  rw [View.canon_unit_zero origin0]
  simp only [View.ld_unit_zero (S := S4000x32) origin0, View.ld_unit_zero (S := S32x128) origin0, View.ld_unit_zero (S := S128x128) origin0,
    View.ld_unit_zero (S := S1x128) origin0]
  exact payXH_apply x0 x1 x2 x3 x4 x5 x6 x7 x8 x9 p q

/-- The layer applied to the arrays the launch finds. -/
def layerOf0 (c : Dev nD) : S200000x128.Idx → EReal :=
  layerFromXH (V c main_arg0) (V c main_v13) (V c main_arg4) (V c main_v14) (V c main_v15) (V c main_v16) (V c main_v17) (V c main_v18)
    (V c main_arg10) (V c main_v19)

/-- The printed index maps over the grid: the two node windows move with the output window along the rows, every
    other block index is zero, and the output's block index stays below 50. -/
theorem blockIdx0 : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (1 : Fin 2) = 0 ∧ win0_10.index t (0 : Fin 2) ≤ 49 :=
  (by decide +kernel : ∀ t : Fin grid0.N, _)

/-- Every one of the 50 row blocks is some point's. -/
theorem blockOnto0 : ∀ q0 : Fin 50, ∃ t : Fin cfg0.N, win0_10.index t = ![q0.val, 0] :=
  (by decide +kernel : ∀ q0 : Fin 50, ∃ t : Fin grid0.N, win0_10.index t = ![q0.val, 0])

set_option maxHeartbeats 4000000 in
/-- What point t writes back is block t of the layer of the arrays as found. -/
theorem flushed0_eq (c : Dev nD) (t : Fin cfg0.N) :
    (dat0 V c).flushed 10 t = ((cfg0.win 10).blk t).view.read (Elt Ideal) (layerOf0 V c) := by
  show (cfg0.win 10).cut (grid0.coords t) ((dat0 V c).after 10 t) = _
  rw [after0_10]
  obtain ⟨a0, a0', a1, a1', a2, a2', a3, a3', a4, a4', a5, a5', a6, a6', a7, a7', a8, a8', a9, a9', a10', a10⟩ := blockIdx0 t
  funext y
  obtain ⟨p, q, rfl⟩ : ∃ (p : Fin 4000) (q : Fin 128), y = ix2 p q := ⟨y 0, y 1, eq_ix2 y⟩
  show out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (ix2 p q)
    = layerOf0 V c (((cfg0.win 10).blk t).view.emb (ix2 p q))
  refine (outXH0_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) p q).trans ?_
  -- the blocks read where the output block's rectangle says: the node blocks in the same rows, the others whole
  have hp : p.val < 4000 := p.isLt
  have e0 : ∀ l : Fin 32, ((cfg0.win 0).blk t).view.emb (ix2 p l) = ix2 ((((cfg0.win 10).blk t).view.emb (ix2 p q)) 0) l := fun l => by
    funext a; apply Fin.ext
    match a with
    | ⟨0, _⟩ => show win0_0.index t (0 : Fin 2) * 4000 + 1 * p.val = win0_10.index t (0 : Fin 2) * 4000 + 1 * p.val; rw [a0]
    | ⟨1, _⟩ => show win0_0.index t (1 : Fin 2) * 32 + 1 * l.val = l.val; omega
  have e1 : ∀ l : Fin 32, ((cfg0.win 1).blk t).view.emb (ix2 p l) = ix2 ((((cfg0.win 10).blk t).view.emb (ix2 p q)) 0) l := fun l => by
    funext a; apply Fin.ext
    match a with
    | ⟨0, _⟩ => show win0_1.index t (0 : Fin 2) * 4000 + 1 * p.val = win0_10.index t (0 : Fin 2) * 4000 + 1 * p.val; rw [a1]
    | ⟨1, _⟩ => show win0_1.index t (1 : Fin 2) * 32 + 1 * l.val = l.val; omega
  have e2 : ∀ (l : Fin 32) (k : Fin 128), ((cfg0.win 2).blk t).view.emb (ix2 l k) = ix2 l k := fun l k => by
    funext a; apply Fin.ext
    match a with
    | ⟨0, _⟩ => show win0_2.index t (0 : Fin 2) * 32 + 1 * l.val = l.val; omega
    | ⟨1, _⟩ => show win0_2.index t (1 : Fin 2) * 128 + 1 * k.val = k.val; omega
  have e8 : ∀ l k : Fin 128, ((cfg0.win 8).blk t).view.emb (ix2 l k) = ix2 l k := fun l k => by
    funext a; apply Fin.ext
    match a with
    | ⟨0, _⟩ => show win0_8.index t (0 : Fin 2) * 128 + 1 * l.val = l.val; omega
    | ⟨1, _⟩ => show win0_8.index t (1 : Fin 2) * 128 + 1 * k.val = k.val; omega
  have e3 : ∀ k : Fin 128, ((cfg0.win 3).blk t).view.emb (ix2 (0 : Fin 1) k) = ix2 (0 : Fin 1) k := fun k => by
    funext a; apply Fin.ext
    match a with
    | ⟨0, _⟩ => show win0_3.index t (0 : Fin 2) * 1 + 1 * (0 : Fin 1).val = (0 : Fin 1).val; rw [a3]; rfl
    | ⟨1, _⟩ => show win0_3.index t (1 : Fin 2) * 128 + 1 * k.val = k.val; omega
  have e4 : ∀ k : Fin 128, ((cfg0.win 4).blk t).view.emb (ix2 (0 : Fin 1) k) = ix2 (0 : Fin 1) k := fun k => by
    funext a; apply Fin.ext
    match a with
    | ⟨0, _⟩ => show win0_4.index t (0 : Fin 2) * 1 + 1 * (0 : Fin 1).val = (0 : Fin 1).val; rw [a4]; rfl
    | ⟨1, _⟩ => show win0_4.index t (1 : Fin 2) * 128 + 1 * k.val = k.val; omega
  have e5 : ∀ k : Fin 128, ((cfg0.win 5).blk t).view.emb (ix2 (0 : Fin 1) k) = ix2 (0 : Fin 1) k := fun k => by
    funext a; apply Fin.ext
    match a with
    | ⟨0, _⟩ => show win0_5.index t (0 : Fin 2) * 1 + 1 * (0 : Fin 1).val = (0 : Fin 1).val; rw [a5]; rfl
    | ⟨1, _⟩ => show win0_5.index t (1 : Fin 2) * 128 + 1 * k.val = k.val; omega
  have e6 : ∀ k : Fin 128, ((cfg0.win 6).blk t).view.emb (ix2 (0 : Fin 1) k) = ix2 (0 : Fin 1) k := fun k => by
    funext a; apply Fin.ext
    match a with
    | ⟨0, _⟩ => show win0_6.index t (0 : Fin 2) * 1 + 1 * (0 : Fin 1).val = (0 : Fin 1).val; rw [a6]; rfl
    | ⟨1, _⟩ => show win0_6.index t (1 : Fin 2) * 128 + 1 * k.val = k.val; omega
  have e7 : ∀ k : Fin 128, ((cfg0.win 7).blk t).view.emb (ix2 (0 : Fin 1) k) = ix2 (0 : Fin 1) k := fun k => by
    funext a; apply Fin.ext
    match a with
    | ⟨0, _⟩ => show win0_7.index t (0 : Fin 2) * 1 + 1 * (0 : Fin 1).val = (0 : Fin 1).val; rw [a7]; rfl
    | ⟨1, _⟩ => show win0_7.index t (1 : Fin 2) * 128 + 1 * k.val = k.val; omega
  have e9 : ∀ k : Fin 128, ((cfg0.win 9).blk t).view.emb (ix2 (0 : Fin 1) k) = ix2 (0 : Fin 1) k := fun k => by
    funext a; apply Fin.ext
    match a with
    | ⟨0, _⟩ => show win0_9.index t (0 : Fin 2) * 1 + 1 * (0 : Fin 1).val = (0 : Fin 1).val; rw [a9]; rfl
    | ⟨1, _⟩ => show win0_9.index t (1 : Fin 2) * 128 + 1 * k.val = k.val; omega
  have eq : ((((cfg0.win 10).blk t).view.emb (ix2 p q)) 1) = q := Fin.ext (by
    show win0_10.index t (1 : Fin 2) * 128 + 1 * q.val = q.val
    omega)
  unfold layerOf0
  refine nodeOut_eq_layerFromXH (V c main_arg0) (V c main_v13) (V c main_arg4) (V c main_v14) (V c main_v15) (V c main_v16) (V c main_v17) (V c main_v18)
    (V c main_arg10) (V c main_v19) (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p q (((cfg0.win 10).blk t).view.emb (ix2 p q))
    (fun l => by
      show (V c main_arg0 : S200000x32.Idx → EReal) (((cfg0.win 0).blk t).view.emb (ix2 p l)) = (V c main_arg0 : S200000x32.Idx → EReal) (ix2 ((((cfg0.win 10).blk t).view.emb (ix2 p q)) 0) l)
      rw [e0 l]; rfl)
    (fun l => by
      show (V c main_v13 : S200000x32.Idx → EReal) (((cfg0.win 1).blk t).view.emb (ix2 p l)) = (V c main_v13 : S200000x32.Idx → EReal) (ix2 ((((cfg0.win 10).blk t).view.emb (ix2 p q)) 0) l)
      rw [e1 l]; rfl)
    (fun l k => by
      show (V c main_arg4 : S32x128.Idx → EReal) (((cfg0.win 2).blk t).view.emb (ix2 l k)) = (V c main_arg4 : S32x128.Idx → EReal) (ix2 l k)
      rw [e2 l k])
    (fun k => by
      show (V c main_v14 : S1x128.Idx → EReal) (((cfg0.win 3).blk t).view.emb (ix2 (0 : Fin 1) k)) = (V c main_v14 : S1x128.Idx → EReal) (ix2 (0 : Fin 1) k)
      rw [e3 k])
    (fun k => by
      show (V c main_v15 : S1x128.Idx → EReal) (((cfg0.win 4).blk t).view.emb (ix2 (0 : Fin 1) k)) = (V c main_v15 : S1x128.Idx → EReal) (ix2 (0 : Fin 1) k)
      rw [e4 k])
    (fun k => by
      show (V c main_v16 : S1x128.Idx → EReal) (((cfg0.win 5).blk t).view.emb (ix2 (0 : Fin 1) k)) = (V c main_v16 : S1x128.Idx → EReal) (ix2 (0 : Fin 1) k)
      rw [e5 k])
    (fun k => by
      show (V c main_v17 : S1x128.Idx → EReal) (((cfg0.win 6).blk t).view.emb (ix2 (0 : Fin 1) k)) = (V c main_v17 : S1x128.Idx → EReal) (ix2 (0 : Fin 1) k)
      rw [e6 k])
    (fun k => by
      show (V c main_v18 : S1x128.Idx → EReal) (((cfg0.win 7).blk t).view.emb (ix2 (0 : Fin 1) k)) = (V c main_v18 : S1x128.Idx → EReal) (ix2 (0 : Fin 1) k)
      rw [e7 k])
    (fun k j => by
      show (V c main_arg10 : S128x128.Idx → EReal) (((cfg0.win 8).blk t).view.emb (ix2 k j)) = (V c main_arg10 : S128x128.Idx → EReal) (ix2 k j)
      rw [e8 k j])
    (fun k => by
      show (V c main_v19 : S1x128.Idx → EReal) (((cfg0.win 9).blk t).view.emb (ix2 (0 : Fin 1) k)) = (V c main_v19 : S1x128.Idx → EReal) (ix2 (0 : Fin 1) k)
      rw [e9 k])
    eq

/-- An index of the result array is in point t's block iff each coordinate is in the block's range on its axis. -/
theorem memBlock0 (t : Fin cfg0.N) (i : S200000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v20).slice (win0_10.rect t)).set ↔ _
  rw [View.set_slice_whole, Rect.mem_set_unit]
  exact Iff.rfl

/-- The 50 blocks tile the result array: row r is in block r / 4000. -/
theorem covered0 (i : S200000x128.Idx) :
    ∃ t : Fin cfg0.N, (cfg0.win 10).flush t = true ∧ i ∈ ((cfg0.win 10).blk t).view.set := by
  have hi0 : (i 0).val < 200000 := (i 0).isLt
  have hi1 : (i 1).val < 128 := (i 1).isLt
  obtain ⟨t, ht⟩ := blockOnto0 ⟨(i 0).val / 4000, by omega⟩
  have q0 : win0_10.index t (0 : Fin 2) = (i 0).val / 4000 := congrFun ht 0
  have q1 : win0_10.index t (1 : Fin 2) = 0 := congrFun ht 1
  refine ⟨t, flush0_10 t, ?_⟩
  rw [memBlock0]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 128 ≤ (i 1).val ∧ (i 1).val < win0_10.index t (1 : Fin 2) * 128 + 128; omega

/-- After the launch the result array is the layer of the arrays the launch found. -/
theorem result0 (c : Dev nD) : (dat0 V c).arrAt 10 cfg0.N = layerOf0 V c :=
  (dat0 V c).arrAt_eq_of_cover 10 (layerOf0 V c) (fun t _ => flushed0_eq V c t) (covered0)

end Cert.KernelValue

end
-- ==== Proof.KLayer1.lean ====
/-
  The array the second launch leaves, as one function of the arrays it finds.

  The launch walks 50 grid points; point t stages rows 4000·t … 4000·t + 3999 of the two node arrays and the whole
  of every weight and statistics array, and writes back the matching 4000 rows of the result.  Entry (p, q) of a
  point's output block is output feature q of the node in row p of its input blocks, so what point t writes back
  is rows 4000·t … of one whole-array function: the layer of the specification applied to the sum of the two node
  arrays.  The 50 blocks tile the 200000 rows, so after the last point the result array is that function.
-/
import proofs.«143687_j45320494907638_2_alg».proof.Proof.Gen.KernelIdeal.Frame
import proofs.«143687_j45320494907638_2_alg».proof.Proof.KPay128
import proofs.«143687_j45320494907638_2_alg».proof.Proof.Spec

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Cert.GinSpec
open Idealize.ShloMosaic.Pipeline (Dat Cfg Window)

variable (V : (c : Dev nD) → (b : Ref sig .tc) → Buf (Elt Ideal) ((c : Thread nD τ).loc b))

theorem origin1 : (![0, 0] : Fin 2 → Nat) = fun _ => 0 := funext fun a => by fin_cases a <;> rfl

/-- Entry (p, q) of a point's output block: the one store of the body covers the block, and its payload there is
    output feature q of the node in row p of the input blocks. -/
theorem outHH1_apply (x0 x1 : Vec Ideal S4000x128 .f32) (x2 : Vec Ideal S128x128 .f32) (x3 x4 x5 x6 x7 : Vec Ideal S1x128 .f32)
    (x8 : Vec Ideal S128x128 .f32) (x9 : Vec Ideal S1x128 .f32) (p : Fin 4000) (q : Fin 128) :
    out1_10 x0 x1 x2 x3 x4 x5 x6 x7 x8 x9 (ix2 p q)
      = nodeOut (fun l => x0 (ix2 p l) + x1 (ix2 p l)) (fun l k => x2 (ix2 l k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) (fun k j => x8 (ix2 k j)) (fun j => x9 (ix2 (0 : Fin 1) j)) q := by
  unfold out1_10
  rw [View.canon_unit_zero origin1]
  simp only [View.ld_unit_zero (S := S4000x128) origin1, View.ld_unit_zero (S := S128x128) origin1,
    View.ld_unit_zero (S := S1x128) origin1]
  exact payHH1_apply x0 x1 x2 x3 x4 x5 x6 x7 x8 x9 p q

/-- The layer applied to the arrays the launch finds. -/
def layerOf1 (c : Dev nD) : S200000x128.Idx → EReal :=
  layerFromHH (V c main_v20) (V c main_v34) (V c main_arg12) (V c main_v35) (V c main_v36) (V c main_v37) (V c main_v38) (V c main_v39)
    (V c main_arg18) (V c main_v40)

/-- The printed index maps over the grid: the two node windows move with the output window along the rows, every
    other block index is zero, and the output's block index stays below 50. -/
theorem blockIdx1 : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (1 : Fin 2) = 0 ∧ win1_10.index t (0 : Fin 2) ≤ 49 :=
  (by decide +kernel : ∀ t : Fin grid1.N, _)

/-- Every one of the 50 row blocks is some point's. -/
theorem blockOnto1 : ∀ q0 : Fin 50, ∃ t : Fin cfg1.N, win1_10.index t = ![q0.val, 0] :=
  (by decide +kernel : ∀ q0 : Fin 50, ∃ t : Fin grid1.N, win1_10.index t = ![q0.val, 0])

set_option maxHeartbeats 4000000 in
/-- What point t writes back is block t of the layer of the arrays as found. -/
theorem flushed1_eq (c : Dev nD) (t : Fin cfg1.N) :
    (dat1 V c).flushed 10 t = ((cfg1.win 10).blk t).view.read (Elt Ideal) (layerOf1 V c) := by
  show (cfg1.win 10).cut (grid1.coords t) ((dat1 V c).after 10 t) = _
  rw [after1_10]
  obtain ⟨a0, a0', a1, a1', a2, a2', a3, a3', a4, a4', a5, a5', a6, a6', a7, a7', a8, a8', a9, a9', a10', a10⟩ := blockIdx1 t
  funext y
  obtain ⟨p, q, rfl⟩ : ∃ (p : Fin 4000) (q : Fin 128), y = ix2 p q := ⟨y 0, y 1, eq_ix2 y⟩
  show out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix2 p q)
    = layerOf1 V c (((cfg1.win 10).blk t).view.emb (ix2 p q))
  refine (outHH1_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) p q).trans ?_
  -- the blocks read where the output block's rectangle says: the node blocks in the same rows, the others whole
  have hp : p.val < 4000 := p.isLt
  have e0 : ∀ l : Fin 128, ((cfg1.win 0).blk t).view.emb (ix2 p l) = ix2 ((((cfg1.win 10).blk t).view.emb (ix2 p q)) 0) l := fun l => by
    funext a; apply Fin.ext
    match a with
    | ⟨0, _⟩ => show win1_0.index t (0 : Fin 2) * 4000 + 1 * p.val = win1_10.index t (0 : Fin 2) * 4000 + 1 * p.val; rw [a0]
    | ⟨1, _⟩ => show win1_0.index t (1 : Fin 2) * 128 + 1 * l.val = l.val; omega
  have e1 : ∀ l : Fin 128, ((cfg1.win 1).blk t).view.emb (ix2 p l) = ix2 ((((cfg1.win 10).blk t).view.emb (ix2 p q)) 0) l := fun l => by
    funext a; apply Fin.ext
    match a with
    | ⟨0, _⟩ => show win1_1.index t (0 : Fin 2) * 4000 + 1 * p.val = win1_10.index t (0 : Fin 2) * 4000 + 1 * p.val; rw [a1]
    | ⟨1, _⟩ => show win1_1.index t (1 : Fin 2) * 128 + 1 * l.val = l.val; omega
  have e2 : ∀ (l : Fin 128) (k : Fin 128), ((cfg1.win 2).blk t).view.emb (ix2 l k) = ix2 l k := fun l k => by
    funext a; apply Fin.ext
    match a with
    | ⟨0, _⟩ => show win1_2.index t (0 : Fin 2) * 128 + 1 * l.val = l.val; omega
    | ⟨1, _⟩ => show win1_2.index t (1 : Fin 2) * 128 + 1 * k.val = k.val; omega
  have e8 : ∀ l k : Fin 128, ((cfg1.win 8).blk t).view.emb (ix2 l k) = ix2 l k := fun l k => by
    funext a; apply Fin.ext
    match a with
    | ⟨0, _⟩ => show win1_8.index t (0 : Fin 2) * 128 + 1 * l.val = l.val; omega
    | ⟨1, _⟩ => show win1_8.index t (1 : Fin 2) * 128 + 1 * k.val = k.val; omega
  have e3 : ∀ k : Fin 128, ((cfg1.win 3).blk t).view.emb (ix2 (0 : Fin 1) k) = ix2 (0 : Fin 1) k := fun k => by
    funext a; apply Fin.ext
    match a with
    | ⟨0, _⟩ => show win1_3.index t (0 : Fin 2) * 1 + 1 * (0 : Fin 1).val = (0 : Fin 1).val; rw [a3]; rfl
    | ⟨1, _⟩ => show win1_3.index t (1 : Fin 2) * 128 + 1 * k.val = k.val; omega
  have e4 : ∀ k : Fin 128, ((cfg1.win 4).blk t).view.emb (ix2 (0 : Fin 1) k) = ix2 (0 : Fin 1) k := fun k => by
    funext a; apply Fin.ext
    match a with
    | ⟨0, _⟩ => show win1_4.index t (0 : Fin 2) * 1 + 1 * (0 : Fin 1).val = (0 : Fin 1).val; rw [a4]; rfl
    | ⟨1, _⟩ => show win1_4.index t (1 : Fin 2) * 128 + 1 * k.val = k.val; omega
  have e5 : ∀ k : Fin 128, ((cfg1.win 5).blk t).view.emb (ix2 (0 : Fin 1) k) = ix2 (0 : Fin 1) k := fun k => by
    funext a; apply Fin.ext
    match a with
    | ⟨0, _⟩ => show win1_5.index t (0 : Fin 2) * 1 + 1 * (0 : Fin 1).val = (0 : Fin 1).val; rw [a5]; rfl
    | ⟨1, _⟩ => show win1_5.index t (1 : Fin 2) * 128 + 1 * k.val = k.val; omega
  have e6 : ∀ k : Fin 128, ((cfg1.win 6).blk t).view.emb (ix2 (0 : Fin 1) k) = ix2 (0 : Fin 1) k := fun k => by
    funext a; apply Fin.ext
    match a with
    | ⟨0, _⟩ => show win1_6.index t (0 : Fin 2) * 1 + 1 * (0 : Fin 1).val = (0 : Fin 1).val; rw [a6]; rfl
    | ⟨1, _⟩ => show win1_6.index t (1 : Fin 2) * 128 + 1 * k.val = k.val; omega
  have e7 : ∀ k : Fin 128, ((cfg1.win 7).blk t).view.emb (ix2 (0 : Fin 1) k) = ix2 (0 : Fin 1) k := fun k => by
    funext a; apply Fin.ext
    match a with
    | ⟨0, _⟩ => show win1_7.index t (0 : Fin 2) * 1 + 1 * (0 : Fin 1).val = (0 : Fin 1).val; rw [a7]; rfl
    | ⟨1, _⟩ => show win1_7.index t (1 : Fin 2) * 128 + 1 * k.val = k.val; omega
  have e9 : ∀ k : Fin 128, ((cfg1.win 9).blk t).view.emb (ix2 (0 : Fin 1) k) = ix2 (0 : Fin 1) k := fun k => by
    funext a; apply Fin.ext
    match a with
    | ⟨0, _⟩ => show win1_9.index t (0 : Fin 2) * 1 + 1 * (0 : Fin 1).val = (0 : Fin 1).val; rw [a9]; rfl
    | ⟨1, _⟩ => show win1_9.index t (1 : Fin 2) * 128 + 1 * k.val = k.val; omega
  have eq : ((((cfg1.win 10).blk t).view.emb (ix2 p q)) 1) = q := Fin.ext (by
    show win1_10.index t (1 : Fin 2) * 128 + 1 * q.val = q.val
    omega)
  unfold layerOf1
  refine nodeOut_eq_layerFromHH (V c main_v20) (V c main_v34) (V c main_arg12) (V c main_v35) (V c main_v36) (V c main_v37) (V c main_v38) (V c main_v39)
    (V c main_arg18) (V c main_v40) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) p q (((cfg1.win 10).blk t).view.emb (ix2 p q))
    (fun l => by
      show (V c main_v20 : S200000x128.Idx → EReal) (((cfg1.win 0).blk t).view.emb (ix2 p l)) = (V c main_v20 : S200000x128.Idx → EReal) (ix2 ((((cfg1.win 10).blk t).view.emb (ix2 p q)) 0) l)
      rw [e0 l]; rfl)
    (fun l => by
      show (V c main_v34 : S200000x128.Idx → EReal) (((cfg1.win 1).blk t).view.emb (ix2 p l)) = (V c main_v34 : S200000x128.Idx → EReal) (ix2 ((((cfg1.win 10).blk t).view.emb (ix2 p q)) 0) l)
      rw [e1 l]; rfl)
    (fun l k => by
      show (V c main_arg12 : S128x128.Idx → EReal) (((cfg1.win 2).blk t).view.emb (ix2 l k)) = (V c main_arg12 : S128x128.Idx → EReal) (ix2 l k)
      rw [e2 l k])
    (fun k => by
      show (V c main_v35 : S1x128.Idx → EReal) (((cfg1.win 3).blk t).view.emb (ix2 (0 : Fin 1) k)) = (V c main_v35 : S1x128.Idx → EReal) (ix2 (0 : Fin 1) k)
      rw [e3 k])
    (fun k => by
      show (V c main_v36 : S1x128.Idx → EReal) (((cfg1.win 4).blk t).view.emb (ix2 (0 : Fin 1) k)) = (V c main_v36 : S1x128.Idx → EReal) (ix2 (0 : Fin 1) k)
      rw [e4 k])
    (fun k => by
      show (V c main_v37 : S1x128.Idx → EReal) (((cfg1.win 5).blk t).view.emb (ix2 (0 : Fin 1) k)) = (V c main_v37 : S1x128.Idx → EReal) (ix2 (0 : Fin 1) k)
      rw [e5 k])
    (fun k => by
      show (V c main_v38 : S1x128.Idx → EReal) (((cfg1.win 6).blk t).view.emb (ix2 (0 : Fin 1) k)) = (V c main_v38 : S1x128.Idx → EReal) (ix2 (0 : Fin 1) k)
      rw [e6 k])
    (fun k => by
      show (V c main_v39 : S1x128.Idx → EReal) (((cfg1.win 7).blk t).view.emb (ix2 (0 : Fin 1) k)) = (V c main_v39 : S1x128.Idx → EReal) (ix2 (0 : Fin 1) k)
      rw [e7 k])
    (fun k j => by
      show (V c main_arg18 : S128x128.Idx → EReal) (((cfg1.win 8).blk t).view.emb (ix2 k j)) = (V c main_arg18 : S128x128.Idx → EReal) (ix2 k j)
      rw [e8 k j])
    (fun k => by
      show (V c main_v40 : S1x128.Idx → EReal) (((cfg1.win 9).blk t).view.emb (ix2 (0 : Fin 1) k)) = (V c main_v40 : S1x128.Idx → EReal) (ix2 (0 : Fin 1) k)
      rw [e9 k])
    eq

/-- An index of the result array is in point t's block iff each coordinate is in the block's range on its axis. -/
theorem memBlock1 (t : Fin cfg1.N) (i : S200000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v41).slice (win1_10.rect t)).set ↔ _
  rw [View.set_slice_whole, Rect.mem_set_unit]
  exact Iff.rfl

/-- The 50 blocks tile the result array: row r is in block r / 4000. -/
theorem covered1 (i : S200000x128.Idx) :
    ∃ t : Fin cfg1.N, (cfg1.win 10).flush t = true ∧ i ∈ ((cfg1.win 10).blk t).view.set := by
  have hi0 : (i 0).val < 200000 := (i 0).isLt
  have hi1 : (i 1).val < 128 := (i 1).isLt
  obtain ⟨t, ht⟩ := blockOnto1 ⟨(i 0).val / 4000, by omega⟩
  have q0 : win1_10.index t (0 : Fin 2) = (i 0).val / 4000 := congrFun ht 0
  have q1 : win1_10.index t (1 : Fin 2) = 0 := congrFun ht 1
  refine ⟨t, flush1_10 t, ?_⟩
  rw [memBlock1]
  intro a
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 128 ≤ (i 1).val ∧ (i 1).val < win1_10.index t (1 : Fin 2) * 128 + 128; omega

/-- After the launch the result array is the layer of the arrays the launch found. -/
theorem result1 (c : Dev nD) : (dat1 V c).arrAt 10 cfg1.N = layerOf1 V c :=
  (dat1 V c).arrAt_eq_of_cover 10 (layerOf1 V c) (fun t _ => flushed1_eq V c t) (covered1)

end Cert.KernelValue

end
-- ==== Proof.KLayer2.lean ====
/-
  The array the third launch leaves, as one function of the arrays it finds.

  The launch walks 50 grid points; point t stages rows 4000·t … 4000·t + 3999 of the two node arrays and the whole
  of every weight and statistics array, and writes back the matching 4000 rows of the result.  Entry (p, q) of a
  point's output block is output feature q of the node in row p of its input blocks, so what point t writes back
  is rows 4000·t … of one whole-array function: the layer of the specification applied to the sum of the two node
  arrays.  The 50 blocks tile the 200000 rows, so after the last point the result array is that function.
-/
import proofs.«143687_j45320494907638_2_alg».proof.Proof.Gen.KernelIdeal.Frame
import proofs.«143687_j45320494907638_2_alg».proof.Proof.KPay128
import proofs.«143687_j45320494907638_2_alg».proof.Proof.Spec

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Cert.GinSpec
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Entry (p, q) of a point's output block: the one store of the body covers the block, and its payload there is
    output feature q of the node in row p of the input blocks. -/
theorem outHH2_apply (x0 x1 : Vec Ideal S4000x128 .f32) (x2 : Vec Ideal S128x128 .f32) (x3 x4 x5 x6 x7 : Vec Ideal S1x128 .f32)
    (x8 : Vec Ideal S128x128 .f32) (x9 : Vec Ideal S1x128 .f32) (p : Fin 4000) (q : Fin 128) :
    out2_10 x0 x1 x2 x3 x4 x5 x6 x7 x8 x9 (ix2 p q)
      = nodeOut (fun l => x0 (ix2 p l) + x1 (ix2 p l)) (fun l k => x2 (ix2 l k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) (fun k j => x8 (ix2 k j)) (fun j => x9 (ix2 (0 : Fin 1) j)) q := by
  unfold out2_10
  rw [View.canon_unit_zero origin2]
  simp only [View.ld_unit_zero (S := S4000x128) origin2, View.ld_unit_zero (S := S128x128) origin2,
    View.ld_unit_zero (S := S1x128) origin2]
  exact payHH2_apply x0 x1 x2 x3 x4 x5 x6 x7 x8 x9 p q

/-- The layer applied to the arrays the launch finds. -/
def layerOf2 (c : Dev nD) : S200000x128.Idx → EReal :=
  layerFromHH (V c main_v41) (V c main_v55) (V c main_arg20) (V c main_v56) (V c main_v57) (V c main_v58) (V c main_v59) (V c main_v60)
    (V c main_arg26) (V c main_v61)

/-- The printed index maps over the grid: the two node windows move with the output window along the rows, every
    other block index is zero, and the output's block index stays below 50. -/
theorem blockIdx2 : ∀ t : Fin cfg2.N,
    win2_0.index t (0 : Fin 2) = win2_10.index t (0 : Fin 2) ∧ win2_0.index t (1 : Fin 2) = 0
    ∧ win2_1.index t (0 : Fin 2) = win2_10.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (1 : Fin 2) = 0 ∧ win2_10.index t (0 : Fin 2) ≤ 49 :=
  (by decide +kernel : ∀ t : Fin grid2.N, _)

/-- Every one of the 50 row blocks is some point's. -/
theorem blockOnto2 : ∀ q0 : Fin 50, ∃ t : Fin cfg2.N, win2_10.index t = ![q0.val, 0] :=
  (by decide +kernel : ∀ q0 : Fin 50, ∃ t : Fin grid2.N, win2_10.index t = ![q0.val, 0])

set_option maxHeartbeats 4000000 in
/-- What point t writes back is block t of the layer of the arrays as found. -/
theorem flushed2_eq (c : Dev nD) (t : Fin cfg2.N) :
    (dat2 V c).flushed 10 t = ((cfg2.win 10).blk t).view.read (Elt Ideal) (layerOf2 V c) := by
  show (cfg2.win 10).cut (grid2.coords t) ((dat2 V c).after 10 t) = _
  rw [after2_10]
  obtain ⟨a0, a0', a1, a1', a2, a2', a3, a3', a4, a4', a5, a5', a6, a6', a7, a7', a8, a8', a9, a9', a10', a10⟩ := blockIdx2 t
  funext y
  obtain ⟨p, q, rfl⟩ : ∃ (p : Fin 4000) (q : Fin 128), y = ix2 p q := ⟨y 0, y 1, eq_ix2 y⟩
  show out2_10 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (ix2 p q)
    = layerOf2 V c (((cfg2.win 10).blk t).view.emb (ix2 p q))
  refine (outHH2_apply (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) p q).trans ?_
  -- the blocks read where the output block's rectangle says: the node blocks in the same rows, the others whole
  have hp : p.val < 4000 := p.isLt
  have e0 : ∀ l : Fin 128, ((cfg2.win 0).blk t).view.emb (ix2 p l) = ix2 ((((cfg2.win 10).blk t).view.emb (ix2 p q)) 0) l := fun l => by
    funext a; apply Fin.ext
    match a with
    | ⟨0, _⟩ => show win2_0.index t (0 : Fin 2) * 4000 + 1 * p.val = win2_10.index t (0 : Fin 2) * 4000 + 1 * p.val; rw [a0]
    | ⟨1, _⟩ => show win2_0.index t (1 : Fin 2) * 128 + 1 * l.val = l.val; omega
  have e1 : ∀ l : Fin 128, ((cfg2.win 1).blk t).view.emb (ix2 p l) = ix2 ((((cfg2.win 10).blk t).view.emb (ix2 p q)) 0) l := fun l => by
    funext a; apply Fin.ext
    match a with
    | ⟨0, _⟩ => show win2_1.index t (0 : Fin 2) * 4000 + 1 * p.val = win2_10.index t (0 : Fin 2) * 4000 + 1 * p.val; rw [a1]
    | ⟨1, _⟩ => show win2_1.index t (1 : Fin 2) * 128 + 1 * l.val = l.val; omega
  have e2 : ∀ (l : Fin 128) (k : Fin 128), ((cfg2.win 2).blk t).view.emb (ix2 l k) = ix2 l k := fun l k => by
    funext a; apply Fin.ext
    match a with
    | ⟨0, _⟩ => show win2_2.index t (0 : Fin 2) * 128 + 1 * l.val = l.val; omega
    | ⟨1, _⟩ => show win2_2.index t (1 : Fin 2) * 128 + 1 * k.val = k.val; omega
  have e8 : ∀ l k : Fin 128, ((cfg2.win 8).blk t).view.emb (ix2 l k) = ix2 l k := fun l k => by
    funext a; apply Fin.ext
    match a with
    | ⟨0, _⟩ => show win2_8.index t (0 : Fin 2) * 128 + 1 * l.val = l.val; omega
    | ⟨1, _⟩ => show win2_8.index t (1 : Fin 2) * 128 + 1 * k.val = k.val; omega
  have e3 : ∀ k : Fin 128, ((cfg2.win 3).blk t).view.emb (ix2 (0 : Fin 1) k) = ix2 (0 : Fin 1) k := fun k => by
    funext a; apply Fin.ext
    match a with
    | ⟨0, _⟩ => show win2_3.index t (0 : Fin 2) * 1 + 1 * (0 : Fin 1).val = (0 : Fin 1).val; rw [a3]; rfl
    | ⟨1, _⟩ => show win2_3.index t (1 : Fin 2) * 128 + 1 * k.val = k.val; omega
  have e4 : ∀ k : Fin 128, ((cfg2.win 4).blk t).view.emb (ix2 (0 : Fin 1) k) = ix2 (0 : Fin 1) k := fun k => by
    funext a; apply Fin.ext
    match a with
    | ⟨0, _⟩ => show win2_4.index t (0 : Fin 2) * 1 + 1 * (0 : Fin 1).val = (0 : Fin 1).val; rw [a4]; rfl
    | ⟨1, _⟩ => show win2_4.index t (1 : Fin 2) * 128 + 1 * k.val = k.val; omega
  have e5 : ∀ k : Fin 128, ((cfg2.win 5).blk t).view.emb (ix2 (0 : Fin 1) k) = ix2 (0 : Fin 1) k := fun k => by
    funext a; apply Fin.ext
    match a with
    | ⟨0, _⟩ => show win2_5.index t (0 : Fin 2) * 1 + 1 * (0 : Fin 1).val = (0 : Fin 1).val; rw [a5]; rfl
    | ⟨1, _⟩ => show win2_5.index t (1 : Fin 2) * 128 + 1 * k.val = k.val; omega
  have e6 : ∀ k : Fin 128, ((cfg2.win 6).blk t).view.emb (ix2 (0 : Fin 1) k) = ix2 (0 : Fin 1) k := fun k => by
    funext a; apply Fin.ext
    match a with
    | ⟨0, _⟩ => show win2_6.index t (0 : Fin 2) * 1 + 1 * (0 : Fin 1).val = (0 : Fin 1).val; rw [a6]; rfl
    | ⟨1, _⟩ => show win2_6.index t (1 : Fin 2) * 128 + 1 * k.val = k.val; omega
  have e7 : ∀ k : Fin 128, ((cfg2.win 7).blk t).view.emb (ix2 (0 : Fin 1) k) = ix2 (0 : Fin 1) k := fun k => by
    funext a; apply Fin.ext
    match a with
    | ⟨0, _⟩ => show win2_7.index t (0 : Fin 2) * 1 + 1 * (0 : Fin 1).val = (0 : Fin 1).val; rw [a7]; rfl
    | ⟨1, _⟩ => show win2_7.index t (1 : Fin 2) * 128 + 1 * k.val = k.val; omega
  have e9 : ∀ k : Fin 128, ((cfg2.win 9).blk t).view.emb (ix2 (0 : Fin 1) k) = ix2 (0 : Fin 1) k := fun k => by
    funext a; apply Fin.ext
    match a with
    | ⟨0, _⟩ => show win2_9.index t (0 : Fin 2) * 1 + 1 * (0 : Fin 1).val = (0 : Fin 1).val; rw [a9]; rfl
    | ⟨1, _⟩ => show win2_9.index t (1 : Fin 2) * 128 + 1 * k.val = k.val; omega
  have eq : ((((cfg2.win 10).blk t).view.emb (ix2 p q)) 1) = q := Fin.ext (by
    show win2_10.index t (1 : Fin 2) * 128 + 1 * q.val = q.val
    omega)
  unfold layerOf2
  refine nodeOut_eq_layerFromHH (V c main_v41) (V c main_v55) (V c main_arg20) (V c main_v56) (V c main_v57) (V c main_v58) (V c main_v59) (V c main_v60)
    (V c main_arg26) (V c main_v61) (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) p q (((cfg2.win 10).blk t).view.emb (ix2 p q))
    (fun l => by
      show (V c main_v41 : S200000x128.Idx → EReal) (((cfg2.win 0).blk t).view.emb (ix2 p l)) = (V c main_v41 : S200000x128.Idx → EReal) (ix2 ((((cfg2.win 10).blk t).view.emb (ix2 p q)) 0) l)
      rw [e0 l]; rfl)
    (fun l => by
      show (V c main_v55 : S200000x128.Idx → EReal) (((cfg2.win 1).blk t).view.emb (ix2 p l)) = (V c main_v55 : S200000x128.Idx → EReal) (ix2 ((((cfg2.win 10).blk t).view.emb (ix2 p q)) 0) l)
      rw [e1 l]; rfl)
    (fun l k => by
      show (V c main_arg20 : S128x128.Idx → EReal) (((cfg2.win 2).blk t).view.emb (ix2 l k)) = (V c main_arg20 : S128x128.Idx → EReal) (ix2 l k)
      rw [e2 l k])
    (fun k => by
      show (V c main_v56 : S1x128.Idx → EReal) (((cfg2.win 3).blk t).view.emb (ix2 (0 : Fin 1) k)) = (V c main_v56 : S1x128.Idx → EReal) (ix2 (0 : Fin 1) k)
      rw [e3 k])
    (fun k => by
      show (V c main_v57 : S1x128.Idx → EReal) (((cfg2.win 4).blk t).view.emb (ix2 (0 : Fin 1) k)) = (V c main_v57 : S1x128.Idx → EReal) (ix2 (0 : Fin 1) k)
      rw [e4 k])
    (fun k => by
      show (V c main_v58 : S1x128.Idx → EReal) (((cfg2.win 5).blk t).view.emb (ix2 (0 : Fin 1) k)) = (V c main_v58 : S1x128.Idx → EReal) (ix2 (0 : Fin 1) k)
      rw [e5 k])
    (fun k => by
      show (V c main_v59 : S1x128.Idx → EReal) (((cfg2.win 6).blk t).view.emb (ix2 (0 : Fin 1) k)) = (V c main_v59 : S1x128.Idx → EReal) (ix2 (0 : Fin 1) k)
      rw [e6 k])
    (fun k => by
      show (V c main_v60 : S1x128.Idx → EReal) (((cfg2.win 7).blk t).view.emb (ix2 (0 : Fin 1) k)) = (V c main_v60 : S1x128.Idx → EReal) (ix2 (0 : Fin 1) k)
      rw [e7 k])
    (fun k j => by
      show (V c main_arg26 : S128x128.Idx → EReal) (((cfg2.win 8).blk t).view.emb (ix2 k j)) = (V c main_arg26 : S128x128.Idx → EReal) (ix2 k j)
      rw [e8 k j])
    (fun k => by
      show (V c main_v61 : S1x128.Idx → EReal) (((cfg2.win 9).blk t).view.emb (ix2 (0 : Fin 1) k)) = (V c main_v61 : S1x128.Idx → EReal) (ix2 (0 : Fin 1) k)
      rw [e9 k])
    eq

/-- An index of the result array is in point t's block iff each coordinate is in the block's range on its axis. -/
theorem memBlock2 (t : Fin cfg2.N) (i : S200000x128.Idx) :
    i ∈ ((cfg2.win 10).blk t).view.set ↔ ∀ a : Fin 2, win2_10.index t a * S4000x128.size a ≤ (i a).val ∧ (i a).val < win2_10.index t a * S4000x128.size a + S4000x128.size a := by
  show i ∈ ((View.whole main_v62).slice (win2_10.rect t)).set ↔ _
  rw [View.set_slice_whole, Rect.mem_set_unit]
  exact Iff.rfl

/-- The 50 blocks tile the result array: row r is in block r / 4000. -/
theorem covered2 (i : S200000x128.Idx) :
    ∃ t : Fin cfg2.N, (cfg2.win 10).flush t = true ∧ i ∈ ((cfg2.win 10).blk t).view.set := by
  have hi0 : (i 0).val < 200000 := (i 0).isLt
  have hi1 : (i 1).val < 128 := (i 1).isLt
  obtain ⟨t, ht⟩ := blockOnto2 ⟨(i 0).val / 4000, by omega⟩
  have q0 : win2_10.index t (0 : Fin 2) = (i 0).val / 4000 := congrFun ht 0
  have q1 : win2_10.index t (1 : Fin 2) = 0 := congrFun ht 1
  refine ⟨t, flush2_10 t, ?_⟩
  rw [memBlock2]
  intro a
  match a with
  | ⟨0, _⟩ => show win2_10.index t (0 : Fin 2) * 4000 ≤ (i 0).val ∧ (i 0).val < win2_10.index t (0 : Fin 2) * 4000 + 4000; omega
  | ⟨1, _⟩ => show win2_10.index t (1 : Fin 2) * 128 ≤ (i 1).val ∧ (i 1).val < win2_10.index t (1 : Fin 2) * 128 + 128; omega

/-- After the launch the result array is the layer of the arrays the launch found. -/
theorem result2 (c : Dev nD) : (dat2 V c).arrAt 10 cfg2.N = layerOf2 V c :=
  (dat2 V c).arrAt_eq_of_cover 10 (layerOf2 V c) (fun t _ => flushed2_eq V c t) (covered2)

end Cert.KernelValue

end
-- ==== Proof.KWalk.lean ====
/-
  The parameter arrays are never written.

  No host operation writes an argument of the program and no launch has one as its output, so at every boundary an
  argument that is only read later still holds what the program was started with.  Stated here for each argument at
  the boundary where a later stretch or launch reads it: after the first launch, after the second, after the third.
-/
import proofs.«143687_j45320494907638_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- None of a stretch's operations writes the buffer, so the stretch leaves it as it was. -/
macro "passes_through" ops:ident : tactic => `(tactic| exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## After the first launch -/

theorem W2_arg1 (c : Dev nD) : W2 m ρ c (Proc.devRef .tc main_arg1) = m ((c : Thread nD τ).loc main_arg1) :=
  (W2_of_ne m ρ c main_arg1 (by decide)).trans
    (by passes_through hostOps0 : W1 m ρ c (Proc.devRef .tc main_arg1) = W0 m ρ c (Proc.devRef .tc main_arg1))
theorem W2_arg3 (c : Dev nD) : W2 m ρ c (Proc.devRef .tc main_arg3) = m ((c : Thread nD τ).loc main_arg3) :=
  (W2_of_ne m ρ c main_arg3 (by decide)).trans
    (by passes_through hostOps0 : W1 m ρ c (Proc.devRef .tc main_arg3) = W0 m ρ c (Proc.devRef .tc main_arg3))
theorem W2_arg12 (c : Dev nD) : W2 m ρ c (Proc.devRef .tc main_arg12) = m ((c : Thread nD τ).loc main_arg12) :=
  (W2_of_ne m ρ c main_arg12 (by decide)).trans
    (by passes_through hostOps0 : W1 m ρ c (Proc.devRef .tc main_arg12) = W0 m ρ c (Proc.devRef .tc main_arg12))
theorem W2_arg13 (c : Dev nD) : W2 m ρ c (Proc.devRef .tc main_arg13) = m ((c : Thread nD τ).loc main_arg13) :=
  (W2_of_ne m ρ c main_arg13 (by decide)).trans
    (by passes_through hostOps0 : W1 m ρ c (Proc.devRef .tc main_arg13) = W0 m ρ c (Proc.devRef .tc main_arg13))
theorem W2_arg14 (c : Dev nD) : W2 m ρ c (Proc.devRef .tc main_arg14) = m ((c : Thread nD τ).loc main_arg14) :=
  (W2_of_ne m ρ c main_arg14 (by decide)).trans
    (by passes_through hostOps0 : W1 m ρ c (Proc.devRef .tc main_arg14) = W0 m ρ c (Proc.devRef .tc main_arg14))
theorem W2_arg15 (c : Dev nD) : W2 m ρ c (Proc.devRef .tc main_arg15) = m ((c : Thread nD τ).loc main_arg15) :=
  (W2_of_ne m ρ c main_arg15 (by decide)).trans
    (by passes_through hostOps0 : W1 m ρ c (Proc.devRef .tc main_arg15) = W0 m ρ c (Proc.devRef .tc main_arg15))
theorem W2_arg16 (c : Dev nD) : W2 m ρ c (Proc.devRef .tc main_arg16) = m ((c : Thread nD τ).loc main_arg16) :=
  (W2_of_ne m ρ c main_arg16 (by decide)).trans
    (by passes_through hostOps0 : W1 m ρ c (Proc.devRef .tc main_arg16) = W0 m ρ c (Proc.devRef .tc main_arg16))
theorem W2_arg17 (c : Dev nD) : W2 m ρ c (Proc.devRef .tc main_arg17) = m ((c : Thread nD τ).loc main_arg17) :=
  (W2_of_ne m ρ c main_arg17 (by decide)).trans
    (by passes_through hostOps0 : W1 m ρ c (Proc.devRef .tc main_arg17) = W0 m ρ c (Proc.devRef .tc main_arg17))
theorem W2_arg18 (c : Dev nD) : W2 m ρ c (Proc.devRef .tc main_arg18) = m ((c : Thread nD τ).loc main_arg18) :=
  (W2_of_ne m ρ c main_arg18 (by decide)).trans
    (by passes_through hostOps0 : W1 m ρ c (Proc.devRef .tc main_arg18) = W0 m ρ c (Proc.devRef .tc main_arg18))
theorem W2_arg19 (c : Dev nD) : W2 m ρ c (Proc.devRef .tc main_arg19) = m ((c : Thread nD τ).loc main_arg19) :=
  (W2_of_ne m ρ c main_arg19 (by decide)).trans
    (by passes_through hostOps0 : W1 m ρ c (Proc.devRef .tc main_arg19) = W0 m ρ c (Proc.devRef .tc main_arg19))
theorem W2_arg20 (c : Dev nD) : W2 m ρ c (Proc.devRef .tc main_arg20) = m ((c : Thread nD τ).loc main_arg20) :=
  (W2_of_ne m ρ c main_arg20 (by decide)).trans
    (by passes_through hostOps0 : W1 m ρ c (Proc.devRef .tc main_arg20) = W0 m ρ c (Proc.devRef .tc main_arg20))
theorem W2_arg21 (c : Dev nD) : W2 m ρ c (Proc.devRef .tc main_arg21) = m ((c : Thread nD τ).loc main_arg21) :=
  (W2_of_ne m ρ c main_arg21 (by decide)).trans
    (by passes_through hostOps0 : W1 m ρ c (Proc.devRef .tc main_arg21) = W0 m ρ c (Proc.devRef .tc main_arg21))
theorem W2_arg22 (c : Dev nD) : W2 m ρ c (Proc.devRef .tc main_arg22) = m ((c : Thread nD τ).loc main_arg22) :=
  (W2_of_ne m ρ c main_arg22 (by decide)).trans
    (by passes_through hostOps0 : W1 m ρ c (Proc.devRef .tc main_arg22) = W0 m ρ c (Proc.devRef .tc main_arg22))
theorem W2_arg23 (c : Dev nD) : W2 m ρ c (Proc.devRef .tc main_arg23) = m ((c : Thread nD τ).loc main_arg23) :=
  (W2_of_ne m ρ c main_arg23 (by decide)).trans
    (by passes_through hostOps0 : W1 m ρ c (Proc.devRef .tc main_arg23) = W0 m ρ c (Proc.devRef .tc main_arg23))
theorem W2_arg24 (c : Dev nD) : W2 m ρ c (Proc.devRef .tc main_arg24) = m ((c : Thread nD τ).loc main_arg24) :=
  (W2_of_ne m ρ c main_arg24 (by decide)).trans
    (by passes_through hostOps0 : W1 m ρ c (Proc.devRef .tc main_arg24) = W0 m ρ c (Proc.devRef .tc main_arg24))
theorem W2_arg25 (c : Dev nD) : W2 m ρ c (Proc.devRef .tc main_arg25) = m ((c : Thread nD τ).loc main_arg25) :=
  (W2_of_ne m ρ c main_arg25 (by decide)).trans
    (by passes_through hostOps0 : W1 m ρ c (Proc.devRef .tc main_arg25) = W0 m ρ c (Proc.devRef .tc main_arg25))
theorem W2_arg26 (c : Dev nD) : W2 m ρ c (Proc.devRef .tc main_arg26) = m ((c : Thread nD τ).loc main_arg26) :=
  (W2_of_ne m ρ c main_arg26 (by decide)).trans
    (by passes_through hostOps0 : W1 m ρ c (Proc.devRef .tc main_arg26) = W0 m ρ c (Proc.devRef .tc main_arg26))
theorem W2_arg27 (c : Dev nD) : W2 m ρ c (Proc.devRef .tc main_arg27) = m ((c : Thread nD τ).loc main_arg27) :=
  (W2_of_ne m ρ c main_arg27 (by decide)).trans
    (by passes_through hostOps0 : W1 m ρ c (Proc.devRef .tc main_arg27) = W0 m ρ c (Proc.devRef .tc main_arg27))
theorem W2_arg30 (c : Dev nD) : W2 m ρ c (Proc.devRef .tc main_arg30) = m ((c : Thread nD τ).loc main_arg30) :=
  (W2_of_ne m ρ c main_arg30 (by decide)).trans
    (by passes_through hostOps0 : W1 m ρ c (Proc.devRef .tc main_arg30) = W0 m ρ c (Proc.devRef .tc main_arg30))
theorem W2_arg31 (c : Dev nD) : W2 m ρ c (Proc.devRef .tc main_arg31) = m ((c : Thread nD τ).loc main_arg31) :=
  (W2_of_ne m ρ c main_arg31 (by decide)).trans
    (by passes_through hostOps0 : W1 m ρ c (Proc.devRef .tc main_arg31) = W0 m ρ c (Proc.devRef .tc main_arg31))
theorem W2_arg32 (c : Dev nD) : W2 m ρ c (Proc.devRef .tc main_arg32) = m ((c : Thread nD τ).loc main_arg32) :=
  (W2_of_ne m ρ c main_arg32 (by decide)).trans
    (by passes_through hostOps0 : W1 m ρ c (Proc.devRef .tc main_arg32) = W0 m ρ c (Proc.devRef .tc main_arg32))
theorem W2_arg33 (c : Dev nD) : W2 m ρ c (Proc.devRef .tc main_arg33) = m ((c : Thread nD τ).loc main_arg33) :=
  (W2_of_ne m ρ c main_arg33 (by decide)).trans
    (by passes_through hostOps0 : W1 m ρ c (Proc.devRef .tc main_arg33) = W0 m ρ c (Proc.devRef .tc main_arg33))

/-! ## After the second launch -/

theorem W4_arg1 (c : Dev nD) : W4 m ρ c (Proc.devRef .tc main_arg1) = m ((c : Thread nD τ).loc main_arg1) :=
  (W4_of_ne m ρ c main_arg1 (by decide)).trans
    ((by passes_through hostOps1 : W3 m ρ c (Proc.devRef .tc main_arg1) = W2 m ρ c (Proc.devRef .tc main_arg1)).trans (W2_arg1 m ρ c))
theorem W4_arg3 (c : Dev nD) : W4 m ρ c (Proc.devRef .tc main_arg3) = m ((c : Thread nD τ).loc main_arg3) :=
  (W4_of_ne m ρ c main_arg3 (by decide)).trans
    ((by passes_through hostOps1 : W3 m ρ c (Proc.devRef .tc main_arg3) = W2 m ρ c (Proc.devRef .tc main_arg3)).trans (W2_arg3 m ρ c))
theorem W4_arg20 (c : Dev nD) : W4 m ρ c (Proc.devRef .tc main_arg20) = m ((c : Thread nD τ).loc main_arg20) :=
  (W4_of_ne m ρ c main_arg20 (by decide)).trans
    ((by passes_through hostOps1 : W3 m ρ c (Proc.devRef .tc main_arg20) = W2 m ρ c (Proc.devRef .tc main_arg20)).trans (W2_arg20 m ρ c))
theorem W4_arg21 (c : Dev nD) : W4 m ρ c (Proc.devRef .tc main_arg21) = m ((c : Thread nD τ).loc main_arg21) :=
  (W4_of_ne m ρ c main_arg21 (by decide)).trans
    ((by passes_through hostOps1 : W3 m ρ c (Proc.devRef .tc main_arg21) = W2 m ρ c (Proc.devRef .tc main_arg21)).trans (W2_arg21 m ρ c))
theorem W4_arg22 (c : Dev nD) : W4 m ρ c (Proc.devRef .tc main_arg22) = m ((c : Thread nD τ).loc main_arg22) :=
  (W4_of_ne m ρ c main_arg22 (by decide)).trans
    ((by passes_through hostOps1 : W3 m ρ c (Proc.devRef .tc main_arg22) = W2 m ρ c (Proc.devRef .tc main_arg22)).trans (W2_arg22 m ρ c))
theorem W4_arg23 (c : Dev nD) : W4 m ρ c (Proc.devRef .tc main_arg23) = m ((c : Thread nD τ).loc main_arg23) :=
  (W4_of_ne m ρ c main_arg23 (by decide)).trans
    ((by passes_through hostOps1 : W3 m ρ c (Proc.devRef .tc main_arg23) = W2 m ρ c (Proc.devRef .tc main_arg23)).trans (W2_arg23 m ρ c))
theorem W4_arg24 (c : Dev nD) : W4 m ρ c (Proc.devRef .tc main_arg24) = m ((c : Thread nD τ).loc main_arg24) :=
  (W4_of_ne m ρ c main_arg24 (by decide)).trans
    ((by passes_through hostOps1 : W3 m ρ c (Proc.devRef .tc main_arg24) = W2 m ρ c (Proc.devRef .tc main_arg24)).trans (W2_arg24 m ρ c))
theorem W4_arg25 (c : Dev nD) : W4 m ρ c (Proc.devRef .tc main_arg25) = m ((c : Thread nD τ).loc main_arg25) :=
  (W4_of_ne m ρ c main_arg25 (by decide)).trans
    ((by passes_through hostOps1 : W3 m ρ c (Proc.devRef .tc main_arg25) = W2 m ρ c (Proc.devRef .tc main_arg25)).trans (W2_arg25 m ρ c))
theorem W4_arg26 (c : Dev nD) : W4 m ρ c (Proc.devRef .tc main_arg26) = m ((c : Thread nD τ).loc main_arg26) :=
  (W4_of_ne m ρ c main_arg26 (by decide)).trans
    ((by passes_through hostOps1 : W3 m ρ c (Proc.devRef .tc main_arg26) = W2 m ρ c (Proc.devRef .tc main_arg26)).trans (W2_arg26 m ρ c))
theorem W4_arg27 (c : Dev nD) : W4 m ρ c (Proc.devRef .tc main_arg27) = m ((c : Thread nD τ).loc main_arg27) :=
  (W4_of_ne m ρ c main_arg27 (by decide)).trans
    ((by passes_through hostOps1 : W3 m ρ c (Proc.devRef .tc main_arg27) = W2 m ρ c (Proc.devRef .tc main_arg27)).trans (W2_arg27 m ρ c))
theorem W4_arg30 (c : Dev nD) : W4 m ρ c (Proc.devRef .tc main_arg30) = m ((c : Thread nD τ).loc main_arg30) :=
  (W4_of_ne m ρ c main_arg30 (by decide)).trans
    ((by passes_through hostOps1 : W3 m ρ c (Proc.devRef .tc main_arg30) = W2 m ρ c (Proc.devRef .tc main_arg30)).trans (W2_arg30 m ρ c))
theorem W4_arg31 (c : Dev nD) : W4 m ρ c (Proc.devRef .tc main_arg31) = m ((c : Thread nD τ).loc main_arg31) :=
  (W4_of_ne m ρ c main_arg31 (by decide)).trans
    ((by passes_through hostOps1 : W3 m ρ c (Proc.devRef .tc main_arg31) = W2 m ρ c (Proc.devRef .tc main_arg31)).trans (W2_arg31 m ρ c))
theorem W4_arg32 (c : Dev nD) : W4 m ρ c (Proc.devRef .tc main_arg32) = m ((c : Thread nD τ).loc main_arg32) :=
  (W4_of_ne m ρ c main_arg32 (by decide)).trans
    ((by passes_through hostOps1 : W3 m ρ c (Proc.devRef .tc main_arg32) = W2 m ρ c (Proc.devRef .tc main_arg32)).trans (W2_arg32 m ρ c))
theorem W4_arg33 (c : Dev nD) : W4 m ρ c (Proc.devRef .tc main_arg33) = m ((c : Thread nD τ).loc main_arg33) :=
  (W4_of_ne m ρ c main_arg33 (by decide)).trans
    ((by passes_through hostOps1 : W3 m ρ c (Proc.devRef .tc main_arg33) = W2 m ρ c (Proc.devRef .tc main_arg33)).trans (W2_arg33 m ρ c))

/-! ## After the third launch -/

theorem W6_arg3 (c : Dev nD) : W6 m ρ c (Proc.devRef .tc main_arg3) = m ((c : Thread nD τ).loc main_arg3) :=
  (W6_of_ne m ρ c main_arg3 (by decide)).trans
    ((by passes_through hostOps2 : W5 m ρ c (Proc.devRef .tc main_arg3) = W4 m ρ c (Proc.devRef .tc main_arg3)).trans (W4_arg3 m ρ c))
theorem W6_arg30 (c : Dev nD) : W6 m ρ c (Proc.devRef .tc main_arg30) = m ((c : Thread nD τ).loc main_arg30) :=
  (W6_of_ne m ρ c main_arg30 (by decide)).trans
    ((by passes_through hostOps2 : W5 m ρ c (Proc.devRef .tc main_arg30) = W4 m ρ c (Proc.devRef .tc main_arg30)).trans (W4_arg30 m ρ c))
theorem W6_arg31 (c : Dev nD) : W6 m ρ c (Proc.devRef .tc main_arg31) = m ((c : Thread nD τ).loc main_arg31) :=
  (W6_of_ne m ρ c main_arg31 (by decide)).trans
    ((by passes_through hostOps2 : W5 m ρ c (Proc.devRef .tc main_arg31) = W4 m ρ c (Proc.devRef .tc main_arg31)).trans (W4_arg31 m ρ c))
theorem W6_arg32 (c : Dev nD) : W6 m ρ c (Proc.devRef .tc main_arg32) = m ((c : Thread nD τ).loc main_arg32) :=
  (W6_of_ne m ρ c main_arg32 (by decide)).trans
    ((by passes_through hostOps2 : W5 m ρ c (Proc.devRef .tc main_arg32) = W4 m ρ c (Proc.devRef .tc main_arg32)).trans (W4_arg32 m ρ c))
theorem W6_arg33 (c : Dev nD) : W6 m ρ c (Proc.devRef .tc main_arg33) = m ((c : Thread nD τ).loc main_arg33) :=
  (W6_of_ne m ρ c main_arg33 (by decide)).trans
    ((by passes_through hostOps2 : W5 m ρ c (Proc.devRef .tc main_arg33) = W4 m ρ c (Proc.devRef .tc main_arg33)).trans (W4_arg33 m ρ c))

end Cert.KernelIdeal.RunValue

end
-- ==== Proof.RefLayers.lean ====
/-
  The reference's three layers, read entry by entry against the shared layer term.

  Each layer of the printed program is the same run of whole-array operations: a contraction of the input rows with the
  first weight matrix, five row vectors broadcast over the nodes (bias, mean, reciprocal square root of the guarded
  variance, scale, shift) combined pointwise, a clip at zero, a second contraction, a bias, and a second clip.  At an
  entry `(r, j)` every broadcast reads its vector at the column, the contractions are sums over the contracted axis of
  row `r` against column `j`, and the clip's constant is zero; what remains is the layer term of node `r` at feature `j`.
-/
import proofs.«143687_j45320494907638_2_alg».proof.Proof.Gen.ReferenceIdeal.Read
import proofs.«143687_j45320494907638_2_alg».proof.Proof.Spec

noncomputable section

namespace Cert.RefLayers

open Cert.ReferenceIdeal Cert.ReferenceIdeal.Read Idealize.ShloMosaic Idealize.ShloMosaic.ValueIdx

/-! ## Pieces shared by the three layers -/

/-- A length-128 vector broadcast first to one row and then over all nodes reads, at entry `(r, k)`, the vector at `k`. -/
theorem rowBcast (x : (⟨S128, .f32⟩ : BufTy).Contents (Elt Ideal)) (r : Fin 200000) (k : Fin 128) :
    val_main_v21 (F := Ideal) x (ix2 r k) = x (ix1 k) := by
  rw [val_main_v21_apply, val_main_v20_apply]
  exact congrArg x (funext fun a => match a with | ⟨0, _⟩ => rfl)

/-- The broadcast reciprocal square root of the guarded variance reads, at entry `(r, k)`, the reciprocal square root
    of the variance at `k` plus the guard. -/
theorem rsqrtRow (x : (⟨S128, .f32⟩ : BufTy).Contents (Elt Ideal)) (r : Fin 200000) (k : Fin 128) :
    val_main_v30 (F := Ideal) x (ix2 r k) = Ideal.rsqrt (x (ix1 k) + Ideal.ofBits .f32 0x3727C5AC#32) := by
  rw [val_main_v30_apply, val_main_v29_apply, val_main_v28_apply, val_main_v27_apply, val_main_v26_apply,
    val_main_cst_1_apply, Ideal.hostUnary_rsqrt_def, Ideal.addf_def, Ideal.ofBits_def]
  have e : idx_main_v29 (idx_main_v30 (ix2 r k)) = ix1 k := funext fun a => match a with | ⟨0, _⟩ => rfl
  rw [e]

/-- The clip's broadcast constant is zero at every entry. -/
theorem clipZero (i : S200000x128.Idx) : val_main_call0_v0 (F := Ideal) i = (0 : EReal) := by
  rw [val_main_call0_v0_apply, val_main_call0_cst_apply, Ideal.ofBits_def, Ideal.ofBits_zero_f32]

/-- The left index of a contraction over the second axis, at entry `(r, j)` and contracted position `k`, is `(r, k)`. -/
theorem lidx128 (r : Fin 200000) (j k : Fin 128) : lidx_main_v39 (ix2 r j) k = ix2 r k :=
  funext fun a => match a with | ⟨0, _⟩ => rfl | ⟨1, _⟩ => rfl

/-- The right index of that contraction is `(k, j)`. -/
theorem ridx128 (r : Fin 200000) (j k : Fin 128) : ridx_main_v39 (ix2 r j) k = ix2 k j :=
  funext fun a => match a with | ⟨0, _⟩ => rfl | ⟨1, _⟩ => rfl

/-- The same for the first layer's contraction over 32 input features. -/
theorem lidx32 (r : Fin 200000) (j : Fin 128) (k : Fin 32) : lidx_main_v19 (ix2 r j) k = ix2 r k :=
  funext fun a => match a with | ⟨0, _⟩ => rfl | ⟨1, _⟩ => rfl

/-- Its right index is `(k, j)`. -/
theorem ridx32 (r : Fin 200000) (j : Fin 128) (k : Fin 32) : ridx_main_v19 (ix2 r j) k = ix2 k j :=
  funext fun a => match a with | ⟨0, _⟩ => rfl | ⟨1, _⟩ => rfl

/-! ## First layer -/

/-- The first layer's hidden activation at entry `(r, k)` is hidden feature `k` of node `r`. -/
theorem hidden1 (x0 : (⟨S200000x32, .f32⟩ : BufTy).Contents (Elt Ideal)) (x1 : (⟨S2x600000, .i32⟩ : BufTy).Contents (Elt Ideal))
    (x4 : (⟨S32x128, .f32⟩ : BufTy).Contents (Elt Ideal)) (x5 x6 x7 x8 x9 : (⟨S128, .f32⟩ : BufTy).Contents (Elt Ideal))
    (r : Fin 200000) (k : Fin 128) :
    val_main_v38 (F := Ideal) x0 x1 x4 x5 x6 x7 x8 x9 (ix2 r k)
      = Cert.GinSpec.hidden (fun l => val_main_v18 (F := Ideal) x0 x1 (ix2 r l)) (fun l k => x4 (ix2 l k))
          (fun k => x5 (ix1 k)) (fun k => x6 (ix1 k)) (fun k => x7 (ix1 k)) (fun k => x8 (ix1 k)) (fun k => x9 (ix1 k)) k := by
  have e21 : val_main_v21 (F := Ideal) x5 (ix2 r k) = x5 (ix1 k) := rowBcast x5 r k
  have e24 : val_main_v24 (F := Ideal) x8 (ix2 r k) = x8 (ix1 k) := rowBcast x8 r k
  have e30 : val_main_v30 (F := Ideal) x9 (ix2 r k) = Ideal.rsqrt (x9 (ix1 k) + Ideal.ofBits .f32 0x3727C5AC#32) := rsqrtRow x9 r k
  have e33 : val_main_v33 (F := Ideal) x6 (ix2 r k) = x6 (ix1 k) := rowBcast x6 r k
  have e36 : val_main_v36 (F := Ideal) x7 (ix2 r k) = x7 (ix1 k) := rowBcast x7 r k
  have ez : val_main_call0_v0 (F := Ideal) (ix2 r k) = (0 : EReal) := clipZero (ix2 r k)
  have el : ∀ l : Fin 32, lidx_main_v19 (ix2 r k) l = ix2 r l := fun l => lidx32 r k l
  have er : ∀ l : Fin 32, ridx_main_v19 (ix2 r k) l = ix2 l k := fun l => ridx32 r k l
  rw [val_main_v38_apply, val_main_v37_apply, val_main_v34_apply, val_main_v31_apply, val_main_v25_apply,
    val_main_v22_apply, val_main_v19_apply, e21, e24, e30, e33, e36, ez]
  simp only [Ideal.addf_def, Ideal.subf_def, Ideal.mulf_def, Ideal.maximumf_def, el, er]
  rfl

/-- The first layer's result is the layer term of its input rows and its eight parameter arrays. -/
theorem layer1 (x0 : (⟨S200000x32, .f32⟩ : BufTy).Contents (Elt Ideal)) (x1 : (⟨S2x600000, .i32⟩ : BufTy).Contents (Elt Ideal))
    (x4 : (⟨S32x128, .f32⟩ : BufTy).Contents (Elt Ideal)) (x5 x6 x7 x8 x9 : (⟨S128, .f32⟩ : BufTy).Contents (Elt Ideal))
    (x10 : (⟨S128x128, .f32⟩ : BufTy).Contents (Elt Ideal)) (x11 : (⟨S128, .f32⟩ : BufTy).Contents (Elt Ideal)) :
    val_main_v43 (F := Ideal) x0 x1 x4 x5 x6 x7 x8 x9 x10 x11
      = Cert.GinSpec.layer (fun r l => val_main_v18 (F := Ideal) x0 x1 (ix2 r l)) (fun l k => x4 (ix2 l k))
          (fun k => x5 (ix1 k)) (fun k => x6 (ix1 k)) (fun k => x7 (ix1 k)) (fun k => x8 (ix1 k)) (fun k => x9 (ix1 k))
          (fun k j => x10 (ix2 k j)) (fun j => x11 (ix1 j)) := by
  funext i
  obtain ⟨r, j, rfl⟩ : ∃ (r : Fin 200000) (j : Fin 128), i = ix2 r j := ⟨i 0, i 1, eq_ix2 i⟩
  rw [Cert.GinSpec.layer_apply]
  have e41 : val_main_v41 (F := Ideal) x11 (ix2 r j) = x11 (ix1 j) := rowBcast x11 r j
  have ez : val_main_call1_v0 (F := Ideal) (ix2 r j) = (0 : EReal) := clipZero (ix2 r j)
  have el : ∀ k : Fin 128, lidx_main_v39 (ix2 r j) k = ix2 r k := fun k => lidx128 r j k
  have er : ∀ k : Fin 128, ridx_main_v39 (ix2 r j) k = ix2 k j := fun k => ridx128 r j k
  rw [val_main_v43_apply, val_main_v42_apply, val_main_v39_apply, e41, ez]
  simp only [Ideal.addf_def, Ideal.maximumf_def, el, er, hidden1]
  rfl

/-! ## Second layer -/

/-- The second layer's hidden activation at entry `(r, k)` is hidden feature `k` of node `r`. -/
theorem hidden2 (x0 : (⟨S200000x32, .f32⟩ : BufTy).Contents (Elt Ideal)) (x1 : (⟨S2x600000, .i32⟩ : BufTy).Contents (Elt Ideal))
    (x4 : (⟨S32x128, .f32⟩ : BufTy).Contents (Elt Ideal)) (x5 x6 x7 x8 x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 x14 x15 x16 x17 : (⟨S128, .f32⟩ : BufTy).Contents (Elt Ideal))
    (r : Fin 200000) (k : Fin 128) :
    val_main_v78 (F := Ideal) x0 x1 x4 x5 x6 x7 x8 x9 x10 x11 x12 x13 x14 x15 x16 x17 (ix2 r k)
      = Cert.GinSpec.hidden (fun l => val_main_v58 (F := Ideal) x0 x1 x4 x5 x6 x7 x8 x9 x10 x11 (ix2 r l)) (fun l k => x12 (ix2 l k))
          (fun k => x13 (ix1 k)) (fun k => x14 (ix1 k)) (fun k => x15 (ix1 k)) (fun k => x16 (ix1 k)) (fun k => x17 (ix1 k)) k := by
  have e21 : val_main_v61 (F := Ideal) x13 (ix2 r k) = x13 (ix1 k) := rowBcast x13 r k
  have e24 : val_main_v64 (F := Ideal) x16 (ix2 r k) = x16 (ix1 k) := rowBcast x16 r k
  have e30 : val_main_v70 (F := Ideal) x17 (ix2 r k) = Ideal.rsqrt (x17 (ix1 k) + Ideal.ofBits .f32 0x3727C5AC#32) := rsqrtRow x17 r k
  have e33 : val_main_v73 (F := Ideal) x14 (ix2 r k) = x14 (ix1 k) := rowBcast x14 r k
  have e36 : val_main_v76 (F := Ideal) x15 (ix2 r k) = x15 (ix1 k) := rowBcast x15 r k
  have ez : val_main_call2_v0 (F := Ideal) (ix2 r k) = (0 : EReal) := clipZero (ix2 r k)
  have el : ∀ l : Fin 128, lidx_main_v59 (ix2 r k) l = ix2 r l := fun l => lidx128 r k l
  have er : ∀ l : Fin 128, ridx_main_v59 (ix2 r k) l = ix2 l k := fun l => ridx128 r k l
  rw [val_main_v78_apply, val_main_v77_apply, val_main_v74_apply, val_main_v71_apply, val_main_v65_apply,
    val_main_v62_apply, val_main_v59_apply, e21, e24, e30, e33, e36, ez]
  simp only [Ideal.addf_def, Ideal.subf_def, Ideal.mulf_def, Ideal.maximumf_def, el, er]
  rfl

/-- The second layer's result is the layer term of its input rows and its eight parameter arrays. -/
theorem layer2 (x0 : (⟨S200000x32, .f32⟩ : BufTy).Contents (Elt Ideal)) (x1 : (⟨S2x600000, .i32⟩ : BufTy).Contents (Elt Ideal))
    (x4 : (⟨S32x128, .f32⟩ : BufTy).Contents (Elt Ideal)) (x5 x6 x7 x8 x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 x14 x15 x16 x17 : (⟨S128, .f32⟩ : BufTy).Contents (Elt Ideal))
    (x18 : (⟨S128x128, .f32⟩ : BufTy).Contents (Elt Ideal)) (x19 : (⟨S128, .f32⟩ : BufTy).Contents (Elt Ideal)) :
    val_main_v83 (F := Ideal) x0 x1 x4 x5 x6 x7 x8 x9 x10 x11 x12 x13 x14 x15 x16 x17 x18 x19
      = Cert.GinSpec.layer (fun r l => val_main_v58 (F := Ideal) x0 x1 x4 x5 x6 x7 x8 x9 x10 x11 (ix2 r l)) (fun l k => x12 (ix2 l k))
          (fun k => x13 (ix1 k)) (fun k => x14 (ix1 k)) (fun k => x15 (ix1 k)) (fun k => x16 (ix1 k)) (fun k => x17 (ix1 k))
          (fun k j => x18 (ix2 k j)) (fun j => x19 (ix1 j)) := by
  funext i
  obtain ⟨r, j, rfl⟩ : ∃ (r : Fin 200000) (j : Fin 128), i = ix2 r j := ⟨i 0, i 1, eq_ix2 i⟩
  rw [Cert.GinSpec.layer_apply]
  have e41 : val_main_v81 (F := Ideal) x19 (ix2 r j) = x19 (ix1 j) := rowBcast x19 r j
  have ez : val_main_call3_v0 (F := Ideal) (ix2 r j) = (0 : EReal) := clipZero (ix2 r j)
  have el : ∀ k : Fin 128, lidx_main_v79 (ix2 r j) k = ix2 r k := fun k => lidx128 r j k
  have er : ∀ k : Fin 128, ridx_main_v79 (ix2 r j) k = ix2 k j := fun k => ridx128 r j k
  rw [val_main_v83_apply, val_main_v82_apply, val_main_v79_apply, e41, ez]
  simp only [Ideal.addf_def, Ideal.maximumf_def, el, er, hidden2]
  rfl

/-! ## Third layer -/

/-- The third layer's hidden activation at entry `(r, k)` is hidden feature `k` of node `r`. -/
theorem hidden3 (x0 : (⟨S200000x32, .f32⟩ : BufTy).Contents (Elt Ideal)) (x1 : (⟨S2x600000, .i32⟩ : BufTy).Contents (Elt Ideal))
    (x4 : (⟨S32x128, .f32⟩ : BufTy).Contents (Elt Ideal)) (x5 x6 x7 x8 x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 x14 x15 x16 x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 x22 x23 x24 x25 : (⟨S128, .f32⟩ : BufTy).Contents (Elt Ideal))
    (r : Fin 200000) (k : Fin 128) :
    val_main_v118 (F := Ideal) x0 x1 x4 x5 x6 x7 x8 x9 x10 x11 x12 x13 x14 x15 x16 x17 x18 x19 x20 x21 x22 x23 x24 x25 (ix2 r k)
      = Cert.GinSpec.hidden (fun l => val_main_v98 (F := Ideal) x0 x1 x4 x5 x6 x7 x8 x9 x10 x11 x12 x13 x14 x15 x16 x17 x18 x19 (ix2 r l)) (fun l k => x20 (ix2 l k))
          (fun k => x21 (ix1 k)) (fun k => x22 (ix1 k)) (fun k => x23 (ix1 k)) (fun k => x24 (ix1 k)) (fun k => x25 (ix1 k)) k := by
  have e21 : val_main_v101 (F := Ideal) x21 (ix2 r k) = x21 (ix1 k) := rowBcast x21 r k
  have e24 : val_main_v104 (F := Ideal) x24 (ix2 r k) = x24 (ix1 k) := rowBcast x24 r k
  have e30 : val_main_v110 (F := Ideal) x25 (ix2 r k) = Ideal.rsqrt (x25 (ix1 k) + Ideal.ofBits .f32 0x3727C5AC#32) := rsqrtRow x25 r k
  have e33 : val_main_v113 (F := Ideal) x22 (ix2 r k) = x22 (ix1 k) := rowBcast x22 r k
  have e36 : val_main_v116 (F := Ideal) x23 (ix2 r k) = x23 (ix1 k) := rowBcast x23 r k
  have ez : val_main_call4_v0 (F := Ideal) (ix2 r k) = (0 : EReal) := clipZero (ix2 r k)
  have el : ∀ l : Fin 128, lidx_main_v99 (ix2 r k) l = ix2 r l := fun l => lidx128 r k l
  have er : ∀ l : Fin 128, ridx_main_v99 (ix2 r k) l = ix2 l k := fun l => ridx128 r k l
  rw [val_main_v118_apply, val_main_v117_apply, val_main_v114_apply, val_main_v111_apply, val_main_v105_apply,
    val_main_v102_apply, val_main_v99_apply, e21, e24, e30, e33, e36, ez]
  simp only [Ideal.addf_def, Ideal.subf_def, Ideal.mulf_def, Ideal.maximumf_def, el, er]
  rfl

/-- The third layer's result is the layer term of its input rows and its eight parameter arrays. -/
theorem layer3 (x0 : (⟨S200000x32, .f32⟩ : BufTy).Contents (Elt Ideal)) (x1 : (⟨S2x600000, .i32⟩ : BufTy).Contents (Elt Ideal))
    (x4 : (⟨S32x128, .f32⟩ : BufTy).Contents (Elt Ideal)) (x5 x6 x7 x8 x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x128, .f32⟩ : BufTy).Contents (Elt Ideal)) (x13 x14 x15 x16 x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 x22 x23 x24 x25 : (⟨S128, .f32⟩ : BufTy).Contents (Elt Ideal))
    (x26 : (⟨S128x128, .f32⟩ : BufTy).Contents (Elt Ideal)) (x27 : (⟨S128, .f32⟩ : BufTy).Contents (Elt Ideal)) :
    val_main_v123 (F := Ideal) x0 x1 x4 x5 x6 x7 x8 x9 x10 x11 x12 x13 x14 x15 x16 x17 x18 x19 x20 x21 x22 x23 x24 x25 x26 x27
      = Cert.GinSpec.layer (fun r l => val_main_v98 (F := Ideal) x0 x1 x4 x5 x6 x7 x8 x9 x10 x11 x12 x13 x14 x15 x16 x17 x18 x19 (ix2 r l)) (fun l k => x20 (ix2 l k))
          (fun k => x21 (ix1 k)) (fun k => x22 (ix1 k)) (fun k => x23 (ix1 k)) (fun k => x24 (ix1 k)) (fun k => x25 (ix1 k))
          (fun k j => x26 (ix2 k j)) (fun j => x27 (ix1 j)) := by
  funext i
  obtain ⟨r, j, rfl⟩ : ∃ (r : Fin 200000) (j : Fin 128), i = ix2 r j := ⟨i 0, i 1, eq_ix2 i⟩
  rw [Cert.GinSpec.layer_apply]
  have e41 : val_main_v121 (F := Ideal) x27 (ix2 r j) = x27 (ix1 j) := rowBcast x27 r j
  have ez : val_main_call5_v0 (F := Ideal) (ix2 r j) = (0 : EReal) := clipZero (ix2 r j)
  have el : ∀ k : Fin 128, lidx_main_v119 (ix2 r j) k = ix2 r k := fun k => lidx128 r j k
  have er : ∀ k : Fin 128, ridx_main_v119 (ix2 r j) k = ix2 k j := fun k => ridx128 r j k
  rw [val_main_v123_apply, val_main_v122_apply, val_main_v119_apply, e41, ez]
  simp only [Ideal.addf_def, Ideal.maximumf_def, el, er, hidden3]
  rfl

end Cert.RefLayers

end
-- ==== Proof.KHost.lean ====
/-
  The idealized kernel's result as the reference's own term of the arguments.

  Between launches the program gathers each edge's source row, adds the gathered rows into their destination rows,
  and hands the sums to the next launch beside the node array itself; before each launch it also re-lays six
  128-vectors as 1 × 128 rows.  These host operations are, operation for operation, the ones the reference
  applies, so once a launch's result array is known to be the reference's stage of that layer, the next launch's
  inputs are the reference's next stages, and after the third launch the closing pooling and two dense maps are the
  reference's too.  A 128-vector re-laid as a 1 × 128 row and read at (0, k) is the vector at k.
-/
import proofs.«143687_j45320494907638_2_alg».proof.Proof.KLayer0
import proofs.«143687_j45320494907638_2_alg».proof.Proof.KLayer1
import proofs.«143687_j45320494907638_2_alg».proof.Proof.KLayer2
import proofs.«143687_j45320494907638_2_alg».proof.Proof.KWalk
import proofs.«143687_j45320494907638_2_alg».proof.Proof.RefLayers
import Idealize.ShloMosaic.Lib.StableHlo.Run

set_option maxRecDepth 16384

noncomputable section

namespace Cert.KernelIdeal.RunValue

open Cert.KernelIdeal Cert.KernelIdeal.Gen Cert.KernelValue Cert.GinSpec
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- A 128-vector re-laid as a 1 × 128 row, read at (0, k), is the vector at k. -/
theorem rowOf_apply (b : S128.Idx → EReal) (h : S128.ShapeCasts S1x128) (k : Fin 128) :
    shapeCast S1x128 b h (ix2 (0 : Fin 1) k) = b (ix1 k) :=
  (shapeCast_addUnit_apply ![128] b h (ix2 (0 : Fin 1) k)).trans
    (congrArg b (funext fun a => by match a with | ⟨0, _⟩ => rfl))

/-! ## The first launch -/

theorem in0_x : (V1 m ρ c main_arg0 : S200000x32.Idx → EReal) = (m ((c : Thread nD τ).loc main_arg0)) := by
  show StableHlo.after hostOps0 (W0 m ρ c) (Proc.devRef .tc main_arg0) = _
  after_results
  all_goals rfl

set_option maxHeartbeats 4000000 in
theorem in0_agg : (V1 m ρ c main_v13 : S200000x32.Idx → EReal) = Cert.ReferenceIdeal.Read.val_main_v17 (F := Ideal) (m ((c : Thread nD τ).loc main_arg0)) (m ((c : Thread nD τ).loc main_arg1)) := by
  show StableHlo.after hostOps0 (W0 m ρ c) (Proc.devRef .tc main_v13) = _
  after_results_simp
  all_goals rfl

theorem in0_w1 : (V1 m ρ c main_arg4 : S32x128.Idx → EReal) = (m ((c : Thread nD τ).loc main_arg4)) := by
  show StableHlo.after hostOps0 (W0 m ρ c) (Proc.devRef .tc main_arg4) = _
  after_results
  all_goals rfl

theorem in0_b1 (k : Fin 128) : V1 m ρ c main_v14 (ix2 (0 : Fin 1) k) = (m ((c : Thread nD τ).loc main_arg5)) (ix1 k) := by
  have e : (V1 m ρ c main_v14 : S1x128.Idx → EReal) = shapeCast S1x128 (m ((c : Thread nD τ).loc main_arg5)) shapeCasts_S128_S1x128 := by
    show StableHlo.after hostOps0 (W0 m ρ c) (Proc.devRef .tc main_v14) = _
    after_results
    all_goals rfl
  rw [e]
  exact rowOf_apply _ _ k

theorem in0_ga (k : Fin 128) : V1 m ρ c main_v15 (ix2 (0 : Fin 1) k) = (m ((c : Thread nD τ).loc main_arg6)) (ix1 k) := by
  have e : (V1 m ρ c main_v15 : S1x128.Idx → EReal) = shapeCast S1x128 (m ((c : Thread nD τ).loc main_arg6)) shapeCasts_S128_S1x128 := by
    show StableHlo.after hostOps0 (W0 m ρ c) (Proc.devRef .tc main_v15) = _
    after_results
    all_goals rfl
  rw [e]
  exact rowOf_apply _ _ k

theorem in0_be (k : Fin 128) : V1 m ρ c main_v16 (ix2 (0 : Fin 1) k) = (m ((c : Thread nD τ).loc main_arg7)) (ix1 k) := by
  have e : (V1 m ρ c main_v16 : S1x128.Idx → EReal) = shapeCast S1x128 (m ((c : Thread nD τ).loc main_arg7)) shapeCasts_S128_S1x128 := by
    show StableHlo.after hostOps0 (W0 m ρ c) (Proc.devRef .tc main_v16) = _
    after_results
    all_goals rfl
  rw [e]
  exact rowOf_apply _ _ k

theorem in0_mu (k : Fin 128) : V1 m ρ c main_v17 (ix2 (0 : Fin 1) k) = (m ((c : Thread nD τ).loc main_arg8)) (ix1 k) := by
  have e : (V1 m ρ c main_v17 : S1x128.Idx → EReal) = shapeCast S1x128 (m ((c : Thread nD τ).loc main_arg8)) shapeCasts_S128_S1x128 := by
    show StableHlo.after hostOps0 (W0 m ρ c) (Proc.devRef .tc main_v17) = _
    after_results
    all_goals rfl
  rw [e]
  exact rowOf_apply _ _ k

theorem in0_va (k : Fin 128) : V1 m ρ c main_v18 (ix2 (0 : Fin 1) k) = (m ((c : Thread nD τ).loc main_arg9)) (ix1 k) := by
  have e : (V1 m ρ c main_v18 : S1x128.Idx → EReal) = shapeCast S1x128 (m ((c : Thread nD τ).loc main_arg9)) shapeCasts_S128_S1x128 := by
    show StableHlo.after hostOps0 (W0 m ρ c) (Proc.devRef .tc main_v18) = _
    after_results
    all_goals rfl
  rw [e]
  exact rowOf_apply _ _ k

theorem in0_w2 : (V1 m ρ c main_arg10 : S128x128.Idx → EReal) = (m ((c : Thread nD τ).loc main_arg10)) := by
  show StableHlo.after hostOps0 (W0 m ρ c) (Proc.devRef .tc main_arg10) = _
  after_results
  all_goals rfl

theorem in0_b2 (k : Fin 128) : V1 m ρ c main_v19 (ix2 (0 : Fin 1) k) = (m ((c : Thread nD τ).loc main_arg11)) (ix1 k) := by
  have e : (V1 m ρ c main_v19 : S1x128.Idx → EReal) = shapeCast S1x128 (m ((c : Thread nD τ).loc main_arg11)) shapeCasts_S128_S1x128 := by
    show StableHlo.after hostOps0 (W0 m ρ c) (Proc.devRef .tc main_v19) = _
    after_results
    all_goals rfl
  rw [e]
  exact rowOf_apply _ _ k

/-- What the launch leaves in its result array is the reference's stage of the same layer, as a function of the
    program's arguments. -/
theorem out0 : (W2 m ρ c (Proc.devRef .tc main_v20) : S200000x128.Idx → EReal) = Cert.ReferenceIdeal.Read.val_main_v43 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W2_arr m ρ c 10).trans ((result0 (V1 m ρ) c).trans ?_)
  rw [Cert.RefLayers.layer1]
  unfold layerOf0 layerFromXH
  refine layer_congr (fun r l => ?_) (fun l k => ?_) (in0_b1 m ρ c) (in0_ga m ρ c) (in0_be m ρ c) (in0_mu m ρ c)
    (in0_va m ρ c) (fun k j => ?_) (in0_b2 m ρ c)
  · rw [in0_x m ρ c, in0_agg m ρ c]; rfl
  · rw [in0_w1 m ρ c]
  · rw [in0_w2 m ρ c]

/-! ## The second launch -/

theorem in1_x : (V3 m ρ c main_v20 : S200000x128.Idx → EReal) = Cert.ReferenceIdeal.Read.val_main_v43 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps1 (W2 m ρ c) (Proc.devRef .tc main_v20) = _
  after_results
  exact out0 m ρ c

set_option maxHeartbeats 4000000 in
theorem in1_agg : (V3 m ρ c main_v34 : S200000x128.Idx → EReal) = Cert.ReferenceIdeal.Read.val_main_v57 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps1 (W2 m ρ c) (Proc.devRef .tc main_v34) = _
  after_results_simp
  rw [out0 m ρ c, W2_arg1 m ρ c]
  rfl

theorem in1_w1 : (V3 m ρ c main_arg12 : S128x128.Idx → EReal) = (m ((c : Thread nD τ).loc main_arg12)) := by
  show StableHlo.after hostOps1 (W2 m ρ c) (Proc.devRef .tc main_arg12) = _
  after_results
  exact W2_arg12 m ρ c

theorem in1_b1 (k : Fin 128) : V3 m ρ c main_v35 (ix2 (0 : Fin 1) k) = (m ((c : Thread nD τ).loc main_arg13)) (ix1 k) := by
  have e : (V3 m ρ c main_v35 : S1x128.Idx → EReal) = shapeCast S1x128 (m ((c : Thread nD τ).loc main_arg13)) shapeCasts_S128_S1x128 := by
    show StableHlo.after hostOps1 (W2 m ρ c) (Proc.devRef .tc main_v35) = _
    after_results
    rw [W2_arg13 m ρ c]
    rfl
  rw [e]
  exact rowOf_apply _ _ k

theorem in1_ga (k : Fin 128) : V3 m ρ c main_v36 (ix2 (0 : Fin 1) k) = (m ((c : Thread nD τ).loc main_arg14)) (ix1 k) := by
  have e : (V3 m ρ c main_v36 : S1x128.Idx → EReal) = shapeCast S1x128 (m ((c : Thread nD τ).loc main_arg14)) shapeCasts_S128_S1x128 := by
    show StableHlo.after hostOps1 (W2 m ρ c) (Proc.devRef .tc main_v36) = _
    after_results
    rw [W2_arg14 m ρ c]
    rfl
  rw [e]
  exact rowOf_apply _ _ k

theorem in1_be (k : Fin 128) : V3 m ρ c main_v37 (ix2 (0 : Fin 1) k) = (m ((c : Thread nD τ).loc main_arg15)) (ix1 k) := by
  have e : (V3 m ρ c main_v37 : S1x128.Idx → EReal) = shapeCast S1x128 (m ((c : Thread nD τ).loc main_arg15)) shapeCasts_S128_S1x128 := by
    show StableHlo.after hostOps1 (W2 m ρ c) (Proc.devRef .tc main_v37) = _
    after_results
    rw [W2_arg15 m ρ c]
    rfl
  rw [e]
  exact rowOf_apply _ _ k

theorem in1_mu (k : Fin 128) : V3 m ρ c main_v38 (ix2 (0 : Fin 1) k) = (m ((c : Thread nD τ).loc main_arg16)) (ix1 k) := by
  have e : (V3 m ρ c main_v38 : S1x128.Idx → EReal) = shapeCast S1x128 (m ((c : Thread nD τ).loc main_arg16)) shapeCasts_S128_S1x128 := by
    show StableHlo.after hostOps1 (W2 m ρ c) (Proc.devRef .tc main_v38) = _
    after_results
    rw [W2_arg16 m ρ c]
    rfl
  rw [e]
  exact rowOf_apply _ _ k

theorem in1_va (k : Fin 128) : V3 m ρ c main_v39 (ix2 (0 : Fin 1) k) = (m ((c : Thread nD τ).loc main_arg17)) (ix1 k) := by
  have e : (V3 m ρ c main_v39 : S1x128.Idx → EReal) = shapeCast S1x128 (m ((c : Thread nD τ).loc main_arg17)) shapeCasts_S128_S1x128 := by
    show StableHlo.after hostOps1 (W2 m ρ c) (Proc.devRef .tc main_v39) = _
    after_results
    rw [W2_arg17 m ρ c]
    rfl
  rw [e]
  exact rowOf_apply _ _ k

theorem in1_w2 : (V3 m ρ c main_arg18 : S128x128.Idx → EReal) = (m ((c : Thread nD τ).loc main_arg18)) := by
  show StableHlo.after hostOps1 (W2 m ρ c) (Proc.devRef .tc main_arg18) = _
  after_results
  exact W2_arg18 m ρ c

theorem in1_b2 (k : Fin 128) : V3 m ρ c main_v40 (ix2 (0 : Fin 1) k) = (m ((c : Thread nD τ).loc main_arg19)) (ix1 k) := by
  have e : (V3 m ρ c main_v40 : S1x128.Idx → EReal) = shapeCast S1x128 (m ((c : Thread nD τ).loc main_arg19)) shapeCasts_S128_S1x128 := by
    show StableHlo.after hostOps1 (W2 m ρ c) (Proc.devRef .tc main_v40) = _
    after_results
    rw [W2_arg19 m ρ c]
    rfl
  rw [e]
  exact rowOf_apply _ _ k

/-- What the launch leaves in its result array is the reference's stage of the same layer, as a function of the
    program's arguments. -/
theorem out1 : (W4 m ρ c (Proc.devRef .tc main_v41) : S200000x128.Idx → EReal) = Cert.ReferenceIdeal.Read.val_main_v83 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W4_arr m ρ c 10).trans ((result1 (V3 m ρ) c).trans ?_)
  rw [Cert.RefLayers.layer2]
  unfold layerOf1 layerFromHH
  refine layer_congr (fun r l => ?_) (fun l k => ?_) (in1_b1 m ρ c) (in1_ga m ρ c) (in1_be m ρ c) (in1_mu m ρ c)
    (in1_va m ρ c) (fun k j => ?_) (in1_b2 m ρ c)
  · rw [in1_x m ρ c, in1_agg m ρ c]; rfl
  · rw [in1_w1 m ρ c]
  · rw [in1_w2 m ρ c]

/-! ## The third launch -/

theorem in2_x : (V5 m ρ c main_v41 : S200000x128.Idx → EReal) = Cert.ReferenceIdeal.Read.val_main_v83 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps2 (W4 m ρ c) (Proc.devRef .tc main_v41) = _
  after_results
  exact out1 m ρ c

set_option maxHeartbeats 4000000 in
theorem in2_agg : (V5 m ρ c main_v55 : S200000x128.Idx → EReal) = Cert.ReferenceIdeal.Read.val_main_v97 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps2 (W4 m ρ c) (Proc.devRef .tc main_v55) = _
  after_results_simp
  rw [out1 m ρ c, W4_arg1 m ρ c]
  rfl

theorem in2_w1 : (V5 m ρ c main_arg20 : S128x128.Idx → EReal) = (m ((c : Thread nD τ).loc main_arg20)) := by
  show StableHlo.after hostOps2 (W4 m ρ c) (Proc.devRef .tc main_arg20) = _
  after_results
  exact W4_arg20 m ρ c

theorem in2_b1 (k : Fin 128) : V5 m ρ c main_v56 (ix2 (0 : Fin 1) k) = (m ((c : Thread nD τ).loc main_arg21)) (ix1 k) := by
  have e : (V5 m ρ c main_v56 : S1x128.Idx → EReal) = shapeCast S1x128 (m ((c : Thread nD τ).loc main_arg21)) shapeCasts_S128_S1x128 := by
    show StableHlo.after hostOps2 (W4 m ρ c) (Proc.devRef .tc main_v56) = _
    after_results
    rw [W4_arg21 m ρ c]
    rfl
  rw [e]
  exact rowOf_apply _ _ k

theorem in2_ga (k : Fin 128) : V5 m ρ c main_v57 (ix2 (0 : Fin 1) k) = (m ((c : Thread nD τ).loc main_arg22)) (ix1 k) := by
  have e : (V5 m ρ c main_v57 : S1x128.Idx → EReal) = shapeCast S1x128 (m ((c : Thread nD τ).loc main_arg22)) shapeCasts_S128_S1x128 := by
    show StableHlo.after hostOps2 (W4 m ρ c) (Proc.devRef .tc main_v57) = _
    after_results
    rw [W4_arg22 m ρ c]
    rfl
  rw [e]
  exact rowOf_apply _ _ k

theorem in2_be (k : Fin 128) : V5 m ρ c main_v58 (ix2 (0 : Fin 1) k) = (m ((c : Thread nD τ).loc main_arg23)) (ix1 k) := by
  have e : (V5 m ρ c main_v58 : S1x128.Idx → EReal) = shapeCast S1x128 (m ((c : Thread nD τ).loc main_arg23)) shapeCasts_S128_S1x128 := by
    show StableHlo.after hostOps2 (W4 m ρ c) (Proc.devRef .tc main_v58) = _
    after_results
    rw [W4_arg23 m ρ c]
    rfl
  rw [e]
  exact rowOf_apply _ _ k

theorem in2_mu (k : Fin 128) : V5 m ρ c main_v59 (ix2 (0 : Fin 1) k) = (m ((c : Thread nD τ).loc main_arg24)) (ix1 k) := by
  have e : (V5 m ρ c main_v59 : S1x128.Idx → EReal) = shapeCast S1x128 (m ((c : Thread nD τ).loc main_arg24)) shapeCasts_S128_S1x128 := by
    show StableHlo.after hostOps2 (W4 m ρ c) (Proc.devRef .tc main_v59) = _
    after_results
    rw [W4_arg24 m ρ c]
    rfl
  rw [e]
  exact rowOf_apply _ _ k

theorem in2_va (k : Fin 128) : V5 m ρ c main_v60 (ix2 (0 : Fin 1) k) = (m ((c : Thread nD τ).loc main_arg25)) (ix1 k) := by
  have e : (V5 m ρ c main_v60 : S1x128.Idx → EReal) = shapeCast S1x128 (m ((c : Thread nD τ).loc main_arg25)) shapeCasts_S128_S1x128 := by
    show StableHlo.after hostOps2 (W4 m ρ c) (Proc.devRef .tc main_v60) = _
    after_results
    rw [W4_arg25 m ρ c]
    rfl
  rw [e]
  exact rowOf_apply _ _ k

theorem in2_w2 : (V5 m ρ c main_arg26 : S128x128.Idx → EReal) = (m ((c : Thread nD τ).loc main_arg26)) := by
  show StableHlo.after hostOps2 (W4 m ρ c) (Proc.devRef .tc main_arg26) = _
  after_results
  exact W4_arg26 m ρ c

theorem in2_b2 (k : Fin 128) : V5 m ρ c main_v61 (ix2 (0 : Fin 1) k) = (m ((c : Thread nD τ).loc main_arg27)) (ix1 k) := by
  have e : (V5 m ρ c main_v61 : S1x128.Idx → EReal) = shapeCast S1x128 (m ((c : Thread nD τ).loc main_arg27)) shapeCasts_S128_S1x128 := by
    show StableHlo.after hostOps2 (W4 m ρ c) (Proc.devRef .tc main_v61) = _
    after_results
    rw [W4_arg27 m ρ c]
    rfl
  rw [e]
  exact rowOf_apply _ _ k

/-- What the launch leaves in its result array is the reference's stage of the same layer, as a function of the
    program's arguments. -/
theorem out2 : (W6 m ρ c (Proc.devRef .tc main_v62) : S200000x128.Idx → EReal) = Cert.ReferenceIdeal.Read.val_main_v123 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine (W6_arr m ρ c 10).trans ((result2 (V5 m ρ) c).trans ?_)
  rw [Cert.RefLayers.layer3]
  unfold layerOf2 layerFromHH
  refine layer_congr (fun r l => ?_) (fun l k => ?_) (in2_b1 m ρ c) (in2_ga m ρ c) (in2_be m ρ c) (in2_mu m ρ c)
    (in2_va m ρ c) (fun k j => ?_) (in2_b2 m ρ c)
  · rw [in2_x m ρ c, in2_agg m ρ c]; rfl
  · rw [in2_w1 m ρ c]
  · rw [in2_w2 m ρ c]

/-! ## After the third launch -/

set_option maxHeartbeats 4000000 in
/-- The result buffer ends at the reference's term of the arguments. -/
theorem result_eq : (W9 m ρ c (Proc.devRef .tc main_v74) : S10000x1.Idx → EReal) = Cert.ReferenceIdeal.Read.val_main_v135 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg30)) (m ((c : Thread nD τ).loc main_arg31)) (m ((c : Thread nD τ).loc main_arg32)) (m ((c : Thread nD τ).loc main_arg33)) := by
  show StableHlo.after hostOps3_2 (StableHlo.after hostOps3_1 (StableHlo.after hostOps3 (W6 m ρ c))) (Proc.devRef .tc main_v74) = _
  after_results_simp
  rw [out2 m ρ c, W6_arg3 m ρ c, W6_arg30 m ρ c, W6_arg31 m ρ c, W6_arg32 m ρ c, W6_arg33 m ρ c]
  rfl

end Cert.KernelIdeal.RunValue

end
-- ==== Proof.lean ====
/-
  The certificate of a three-layer graph network: on every node, add the features gathered from its in-neighbours
  to its own, apply a two-stage dense update with a fixed-statistics normalisation between the stages, clip at zero;
  after three such layers pool the nodes of each graph and apply two dense maps.

  The kernel program runs each layer's dense update as a launch over 50 blocks of 4000 nodes and leaves the
  gathering, the pooling and the closing maps to host operations; the reference applies every step to whole arrays.
  On the extended reals the two agree entry by entry.  Each launch's result array is the layer of the specification
  applied to the arrays the launch finds (one block at a time, the blocks tiling the array); the reference's stage
  of the same layer is that same function; the host operations around the launches are the reference's own.  No
  algebraic law beyond reading a matrix product as a sum is used, so the inputs' finiteness is never opened.

  The three frame claims are the generated frames (the reference's is its generated run with the result dropped),
  and the idealization rewrote nothing, so there is nothing to preserve.
-/
import proofs.«143687_j45320494907638_2_alg».proof.Defs
import proofs.«143687_j45320494907638_2_alg».proof.Proof.Gen.Kernel
import proofs.«143687_j45320494907638_2_alg».proof.Proof.Gen.Kernel.Skeleton
import proofs.«143687_j45320494907638_2_alg».proof.Proof.Gen.Kernel.Launch
import proofs.«143687_j45320494907638_2_alg».proof.Proof.Gen.Kernel.Points
import proofs.«143687_j45320494907638_2_alg».proof.Proof.Gen.Kernel.Frame
import proofs.«143687_j45320494907638_2_alg».proof.Proof.Gen.KernelIdeal
import proofs.«143687_j45320494907638_2_alg».proof.Proof.Gen.KernelIdeal.Skeleton
import proofs.«143687_j45320494907638_2_alg».proof.Proof.Gen.KernelIdeal.Launch
import proofs.«143687_j45320494907638_2_alg».proof.Proof.Gen.KernelIdeal.Points
import proofs.«143687_j45320494907638_2_alg».proof.Proof.Gen.KernelIdeal.Frame
import proofs.«143687_j45320494907638_2_alg».proof.Proof.Gen.ReferenceIdeal
import proofs.«143687_j45320494907638_2_alg».proof.Proof.Gen.ReferenceIdeal.Run
import proofs.«143687_j45320494907638_2_alg».proof.Proof.Gen.ReferenceIdeal.Read
import proofs.«143687_j45320494907638_2_alg».proof.Proof.Gen.Pre_finite_inputs
import proofs.«143687_j45320494907638_2_alg».proof.Proof.KRun
import proofs.«143687_j45320494907638_2_alg».proof.Proof.KHost
import Idealize.ShloMosaic.Adequacy
import Idealize.ShloMosaic.Init

set_option maxRecDepth 16384

noncomputable section

namespace Cert.Proof

open Idealize.ShloMosaic Idealize.SL.Sem

/-- The word-level kernel terminates without a fault and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run names the result, and dropping the result leaves the frame. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the reference's term of those arguments in
    their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v74),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33⟩ := hagree c
  rw [Cert.ReferenceIdeal.Read.val_main_v135_eq, h0, h1, h3, h4, h5, h6, h7, h8, h9, h10, h11, h12, h13, h14, h15, h16, h17, h18, h19, h20, h21, h22, h23, h24, h25, h26, h27, h30, h31, h32, h33]
  exact (Cert.KernelIdeal.RunValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
